-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S10000x128 : Shape := ⟨2, ![10000, 128]⟩
abbrev S740000x128 : Shape := ⟨2, ![740000, 128]⟩
abbrev S1x128 : Shape := ⟨2, ![1, 128]⟩

abbrev nBuf : Space → Nat
  | .hbm => 108
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S100000x128, .f32⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x128, .f32⟩
  | .hbm, ⟨58, _⟩ => ⟨S740000x1, .f32⟩
  | .hbm, ⟨59, _⟩ => ⟨S740000x128, .f32⟩
  | .hbm, ⟨60, _⟩ => ⟨S740000x128, .f32⟩
  | .hbm, ⟨61, _⟩ => ⟨S_, .f32⟩
  | .hbm, ⟨62, _⟩ => ⟨S100000x128, .f32⟩
  | .hbm, ⟨63, _⟩ => ⟨S740000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S740000, .i32⟩
  | .hbm, ⟨71, _⟩ => ⟨S740000, .i1⟩
  | .hbm, ⟨72, _⟩ => ⟨S_, .i32⟩
  | .hbm, ⟨73, _⟩ => ⟨S740000, .i32⟩
  | .hbm, ⟨74, _⟩ => ⟨S740000, .i32⟩
  | .hbm, ⟨75, _⟩ => ⟨S740000, .i32⟩
  | .hbm, ⟨76, _⟩ => ⟨S740000x1, .i32⟩
  | .hbm, ⟨77, _⟩ => ⟨S740000x128, .f32⟩
  | .hbm, ⟨78, _⟩ => ⟨S740000x1, .f32⟩
  | .hbm, ⟨79, _⟩ => ⟨S740000x128, .f32⟩
  | .hbm, ⟨80, _⟩ => ⟨S740000x128, .f32⟩
  | .hbm, ⟨81, _⟩ => ⟨S_, .f32⟩
  | .hbm, ⟨82, _⟩ => ⟨S100000x128, .f32⟩
  | .hbm, ⟨83, _⟩ => ⟨S740000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S740000, .i32⟩
  | .hbm, ⟨91, _⟩ => ⟨S740000, .i1⟩
  | .hbm, ⟨92, _⟩ => ⟨S_, .i32⟩
  | .hbm, ⟨93, _⟩ => ⟨S740000, .i32⟩
  | .hbm, ⟨94, _⟩ => ⟨S740000, .i32⟩
  | .hbm, ⟨95, _⟩ => ⟨S740000, .i32⟩
  | .hbm, ⟨96, _⟩ => ⟨S740000x1, .i32⟩
  | .hbm, ⟨97, _⟩ => ⟨S740000x128, .f32⟩
  | .hbm, ⟨98, _⟩ => ⟨S740000x1, .f32⟩
  | .hbm, ⟨99, _⟩ => ⟨S740000x128, .f32⟩
  | .hbm, ⟨100, _⟩ => ⟨S740000x128, .f32⟩
  | .hbm, ⟨101, _⟩ => ⟨S_, .f32⟩
  | .hbm, ⟨102, _⟩ => ⟨S100000x128, .f32⟩
  | .hbm, ⟨103, _⟩ => ⟨S740000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S10000x128_S128x128_S10000x128_1_0_0_1_n_n_wf : DotDims.WF S10000x128 S128x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 195
  | .vmem => 0
  | .smem => 0
  | _ => 0

abbrev hbmTy0_0 (i : Nat) : BufTy := match i % 128 with
  | 0 => ⟨S100000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S100000, .i32⟩
  | 9 => ⟨S1x640000, .i32⟩
  | 10 => ⟨S640000, .i32⟩
  | 11 => ⟨S740000, .i32⟩
  | 12 => ⟨S1x640000, .i32⟩
  | 13 => ⟨S640000, .i32⟩
  | 14 => ⟨S740000, .i32⟩
  | 15 => ⟨S_, .f32⟩
  | 16 => ⟨S100000x128, .f32⟩
  | 17 => ⟨S100000x128, .i1⟩
  | 18 => ⟨S_, .f32⟩
  | 19 => ⟨S100000x128, .f32⟩
  | 20 => ⟨S100000x128, .f32⟩
  | 21 => ⟨S100000x128, .f32⟩
  | 22 => ⟨S100000x128, .f32⟩
  | 23 => ⟨S_, .f32⟩
  | 24 => ⟨S740000, .f32⟩
  | 25 => ⟨S_, .f32⟩
  | 26 => ⟨S100000, .f32⟩
  | 27 => ⟨S740000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S740000, .i32⟩
  | 39 => ⟨S740000, .i1⟩
  | 40 => ⟨S_, .i32⟩
  | 41 => ⟨S740000, .i32⟩
  | 42 => ⟨S740000, .i32⟩
  | 43 => ⟨S740000, .i32⟩
  | 44 => ⟨S740000x1, .i32⟩
  | 45 => ⟨S740000, .f32⟩
  | 46 => ⟨S_, .i32⟩
  | 47 => ⟨S740000, .i32⟩
  | 48 => ⟨S740000, .i1⟩
  | 49 => ⟨S_, .i32⟩
  | 50 => ⟨S740000, .i32⟩
  | 51 => ⟨S740000, .i32⟩
  | 52 => ⟨S740000, .i32⟩
  | 53 => ⟨S740000x1, .i32⟩
  | 54 => ⟨S740000, .f32⟩
  | 55 => ⟨S740000, .f32⟩
  | 56 => ⟨S_, .i32⟩
  | 57 => ⟨S740000, .i32⟩
  | 58 => ⟨S740000, .i1⟩
  | 59 => ⟨S_, .i32⟩
  | 60 => ⟨S740000, .i32⟩
  | 61 => ⟨S740000, .i32⟩
  | 62 => ⟨S740000, .i32⟩
  | 63 => ⟨S740000x1, .i32⟩
  | 64 => ⟨S740000x128, .f32⟩
  | 65 => ⟨S740000x1, .f32⟩
  | 66 => ⟨S740000x128, .f32⟩
  | 67 => ⟨S740000x128, .f32⟩
  | 68 => ⟨S_, .f32⟩
  | 69 => ⟨S100000x128, .f32⟩
  | 70 => ⟨S740000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .i1⟩
  | 78 => ⟨S_, .f32⟩
  | 79 => ⟨S100000x128, .f32⟩
  | 80 => ⟨S100000x128, .f32⟩
  | 81 => ⟨S100000x128, .f32⟩
  | 82 => ⟨S100000x128, .f32⟩
  | 83 => ⟨S_, .f32⟩
  | 84 => ⟨S740000, .f32⟩
  | 85 => ⟨S_, .f32⟩
  | 86 => ⟨S100000, .f32⟩
  | 87 => ⟨S740000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S740000, .i32⟩
  | 99 => ⟨S740000, .i1⟩
  | 100 => ⟨S_, .i32⟩
  | 101 => ⟨S740000, .i32⟩
  | 102 => ⟨S740000, .i32⟩
  | 103 => ⟨S740000, .i32⟩
  | 104 => ⟨S740000x1, .i32⟩
  | 105 => ⟨S740000, .f32⟩
  | 106 => ⟨S_, .i32⟩
  | 107 => ⟨S740000, .i32⟩
  | 108 => ⟨S740000, .i1⟩
  | 109 => ⟨S_, .i32⟩
  | 110 => ⟨S740000, .i32⟩
  | 111 => ⟨S740000, .i32⟩
  | 112 => ⟨S740000, .i32⟩
  | 113 => ⟨S740000x1, .i32⟩
  | 114 => ⟨S740000, .f32⟩
  | 115 => ⟨S740000, .f32⟩
  | 116 => ⟨S_, .i32⟩
  | 117 => ⟨S740000, .i32⟩
  | 118 => ⟨S740000, .i1⟩
  | 119 => ⟨S_, .i32⟩
  | 120 => ⟨S740000, .i32⟩
  | 121 => ⟨S740000, .i32⟩
  | 122 => ⟨S740000, .i32⟩
  | 123 => ⟨S740000x1, .i32⟩
  | 124 => ⟨S740000x128, .f32⟩
  | 125 => ⟨S740000x1, .f32⟩
  | 126 => ⟨S740000x128, .f32⟩
  | 127 => ⟨S740000x128, .f32⟩
  | _ => ⟨S100000x128, .f32⟩

abbrev hbmTy0_1 (i : Nat) : BufTy := match i % 128 with
  | 0 => ⟨S_, .f32⟩
  | 1 => ⟨S100000x128, .f32⟩
  | 2 => ⟨S740000x1, .i32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .i1⟩
  | 10 => ⟨S_, .f32⟩
  | 11 => ⟨S100000x128, .f32⟩
  | 12 => ⟨S100000x128, .f32⟩
  | 13 => ⟨S100000x128, .f32⟩
  | 14 => ⟨S100000x128, .f32⟩
  | 15 => ⟨S_, .f32⟩
  | 16 => ⟨S740000, .f32⟩
  | 17 => ⟨S_, .f32⟩
  | 18 => ⟨S100000, .f32⟩
  | 19 => ⟨S740000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S740000, .i32⟩
  | 31 => ⟨S740000, .i1⟩
  | 32 => ⟨S_, .i32⟩
  | 33 => ⟨S740000, .i32⟩
  | 34 => ⟨S740000, .i32⟩
  | 35 => ⟨S740000, .i32⟩
  | 36 => ⟨S740000x1, .i32⟩
  | 37 => ⟨S740000, .f32⟩
  | 38 => ⟨S_, .i32⟩
  | 39 => ⟨S740000, .i32⟩
  | 40 => ⟨S740000, .i1⟩
  | 41 => ⟨S_, .i32⟩
  | 42 => ⟨S740000, .i32⟩
  | 43 => ⟨S740000, .i32⟩
  | 44 => ⟨S740000, .i32⟩
  | 45 => ⟨S740000x1, .i32⟩
  | 46 => ⟨S740000, .f32⟩
  | 47 => ⟨S740000, .f32⟩
  | 48 => ⟨S_, .i32⟩
  | 49 => ⟨S740000, .i32⟩
  | 50 => ⟨S740000, .i1⟩
  | 51 => ⟨S_, .i32⟩
  | 52 => ⟨S740000, .i32⟩
  | 53 => ⟨S740000, .i32⟩
  | 54 => ⟨S740000, .i32⟩
  | 55 => ⟨S740000x1, .i32⟩
  | 56 => ⟨S740000x128, .f32⟩
  | 57 => ⟨S740000x1, .f32⟩
  | 58 => ⟨S740000x128, .f32⟩
  | 59 => ⟨S740000x128, .f32⟩
  | 60 => ⟨S_, .f32⟩
  | 61 => ⟨S100000x128, .f32⟩
  | 62 => ⟨S740000x1, .i32⟩
  | 63 => ⟨S100000x128, .f32⟩
  | 64 => ⟨S1x128, .f32⟩
  | 65 => ⟨S100000x128, .f32⟩
  | 66 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_16 : Ref sig .tc := ⟨.hbm, 93, rfl⟩
abbrev main_call3_v0 : Ref sig .tc := ⟨.hbm, 94, rfl⟩
abbrev main_call3_v1 : Ref sig .tc := ⟨.hbm, 95, rfl⟩
abbrev main_v65 : Ref sig .tc := ⟨.hbm, 96, rfl⟩
abbrev main_c_17 : Ref sig .tc := ⟨.hbm, 97, rfl⟩
abbrev main_v66 : Ref sig .tc := ⟨.hbm, 98, rfl⟩
abbrev main_v67 : Ref sig .tc := ⟨.hbm, 99, rfl⟩
abbrev main_c_18 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_19 : Ref sig .tc := ⟨.hbm, 106, rfl⟩
abbrev main_v73 : Ref sig .tc := ⟨.hbm, 107, rfl⟩
abbrev main_v74 : Ref sig .tc := ⟨.hbm, 108, rfl⟩
abbrev main_c_20 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_21 : Ref sig .tc := ⟨.hbm, 116, rfl⟩
abbrev main_v81 : Ref sig .tc := ⟨.hbm, 117, rfl⟩
abbrev main_v82 : Ref sig .tc := ⟨.hbm, 118, rfl⟩
abbrev main_c_22 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_23 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_24 : Ref sig .tc := ⟨.hbm, 135, rfl⟩
abbrev main_v97 : Ref sig .tc := ⟨.hbm, 136, rfl⟩
abbrev main_v98 : Ref sig .tc := ⟨.hbm, 137, rfl⟩
abbrev main_cst_25 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_26 : Ref sig .tc := ⟨.hbm, 143, rfl⟩
abbrev main_v103 : Ref sig .tc := ⟨.hbm, 144, rfl⟩
abbrev main_cst_27 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_28 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_29 : Ref sig .tc := ⟨.hbm, 153, rfl⟩
abbrev main_call5_v0 : Ref sig .tc := ⟨.hbm, 154, rfl⟩
abbrev main_call5_v1 : Ref sig .tc := ⟨.hbm, 155, rfl⟩
abbrev main_v110 : Ref sig .tc := ⟨.hbm, 156, rfl⟩
abbrev main_c_30 : Ref sig .tc := ⟨.hbm, 157, rfl⟩
abbrev main_v111 : Ref sig .tc := ⟨.hbm, 158, rfl⟩
abbrev main_v112 : Ref sig .tc := ⟨.hbm, 159, rfl⟩
abbrev main_c_31 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_c_32 : Ref sig .tc := ⟨.hbm, 166, rfl⟩
abbrev main_v118 : Ref sig .tc := ⟨.hbm, 167, rfl⟩
abbrev main_v119 : Ref sig .tc := ⟨.hbm, 168, rfl⟩
abbrev main_c_33 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_c_34 : Ref sig .tc := ⟨.hbm, 176, rfl⟩
abbrev main_v126 : Ref sig .tc := ⟨.hbm, 177, rfl⟩
abbrev main_v127 : Ref sig .tc := ⟨.hbm, 178, rfl⟩
abbrev main_c_35 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_36 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S100000x128 : S_.BroadcastsInDim S100000x128 (![] : Fin 0 → Fin S100000x128.rank)
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.Spec.lean ====
/-
  The graph network as one function of the arguments.

  An edge array `e : [2, 640000]` of 32-bit node numbers gives two node lists of length 740000: a row of `e`
  followed by the self loops 0 … 99999 (`nodes0` the senders, `nodes1` the receivers).  The in-degree of a node is the
  number of times the receivers' list lands on it; an edge's weight is the product of the inverse square roots of
  the degrees at its two ends, a node of degree zero contributing zero (`edgeW`).  One layer takes a node array
  `x : [100000, 128]`, applies the leaky rectifier entrywise (`act`), multiplies by a 128 × 128 matrix (`dense`),
  then for every edge reads the sender's row, scales it by the edge's weight, adds it into the receiver's row of a
  zero array, and adds the bias row (`agg`).  The network is three layers (`net`).

  Everything is spelt with the host operations of the reference program, so that each program's own text unfolds to
  these terms.
-/
import proofs.«160299_j35218731827634_2_alg».proof.ReferenceIdeal
import proofs.«160299_j35218731827634_2_alg».proof.Proof.Gen.ReferenceIdeal

noncomputable section

namespace Cert.Gcn

open Cert.ReferenceIdeal Cert.ReferenceIdeal.Gen Idealize.ShloMosaic

variable {F : FTy → Type} [FloatOps F]

/-- Row 0 of the edge array followed by the self loops. -/
def nodes0 (e : (⟨S2x640000, .i32⟩ : BufTy).Contents (Elt F)) : (⟨S740000, .i32⟩ : BufTy).Contents (Elt F) :=
  concatenate S740000 0 [⟨S640000, (shapeCast _ (extractStridedSlice S1x640000 ![0, 0] e slices_S2x640000_S1x640000_0_0) shapeCasts_S1x640000_S640000 : (⟨S640000, .i32⟩ : BufTy).Contents (Elt F))⟩, ⟨S100000, (iotaInDim S100000 32 0 : (⟨S100000, .i32⟩ : BufTy).Contents (Elt F))⟩] concatenates_S640000_S100000_S740000_d0

/-- Row 1 of the edge array followed by the self loops. -/
def nodes1 (e : (⟨S2x640000, .i32⟩ : BufTy).Contents (Elt F)) : (⟨S740000, .i32⟩ : BufTy).Contents (Elt F) :=
  concatenate S740000 0 [⟨S640000, (shapeCast _ (extractStridedSlice S1x640000 ![1, 0] e slices_S2x640000_S1x640000_1_0) shapeCasts_S1x640000_S640000 : (⟨S640000, .i32⟩ : BufTy).Contents (Elt F))⟩, ⟨S100000, (iotaInDim S100000 32 0 : (⟨S100000, .i32⟩ : BufTy).Contents (Elt F))⟩] concatenates_S640000_S100000_S740000_d0

/-- A node list as an index column, a negative entry moved up by the node count. -/
def wrapCol (v : (⟨S740000, .i32⟩ : BufTy).Contents (Elt F)) : (⟨S740000x1, .i32⟩ : BufTy).Contents (Elt F) :=
  broadcastInDim S740000x1 ![0] bcast_S740000_S740000x1_0
    (select (cmpi .slt v (broadcastInDim S740000 ![] bcast_S_S740000 (constantI S_ 32 0#32)))
      (addi v (broadcastInDim S740000 ![] bcast_S_S740000 (constantI S_ 32 100000#32))) v)

/-- The in-degrees: ones added at the receivers. -/
def degree (dst : (⟨S740000, .i32⟩ : BufTy).Contents (Elt F)) : (⟨S100000, .f32⟩ : BufTy).Contents (Elt F) :=
  Host.scatterAdd scatter_S100000_S740000x1_S740000_n_0_0_1
    (broadcastInDim S100000 ![] bcast_S_S100000 (constant S_ .f32 0x00000000#32))
    (broadcastInDim S740000x1 ![0] bcast_S740000_S740000x1_0 dst)
    (broadcastInDim S740000 ![] bcast_S_S740000 (constant S_ .f32 0x3F800000#32))

/-- The inverse square root of a positive degree, zero elsewhere. -/
def invSqrt (deg : (⟨S100000, .f32⟩ : BufTy).Contents (Elt F)) : (⟨S100000, .f32⟩ : BufTy).Contents (Elt F) :=
  select (cmpf .ogt deg (broadcastInDim S100000 ![] bcast_S_S100000 (constant S_ .f32 0x00000000#32)))
    (Host.rsqrt deg) (broadcastInDim S100000 ![] bcast_S_S100000 (id (constant S_ .f32 0x00000000#32)))

/-- An edge's weight: the product of its two ends' inverse square root degrees. -/
def edgeW (src dst : (⟨S740000, .i32⟩ : BufTy).Contents (Elt F)) : (⟨S740000, .f32⟩ : BufTy).Contents (Elt F) :=
  mulf (Host.gather gather_S100000_S740000x1_S740000_n_0_n_n_0_1_1 (invSqrt (degree dst)) (wrapCol src))
    (Host.gather gather_S100000_S740000x1_S740000_n_0_n_n_0_1_1 (invSqrt (degree dst)) (wrapCol dst))

/-- The weighted sum over the edges into each receiver's row, plus the bias row. -/
def agg (h : (⟨S100000x128, .f32⟩ : BufTy).Contents (Elt F)) (src dst : (⟨S740000, .i32⟩ : BufTy).Contents (Elt F))
    (w : (⟨S740000, .f32⟩ : BufTy).Contents (Elt F)) (b : (⟨S128, .f32⟩ : BufTy).Contents (Elt F)) :
    (⟨S100000x128, .f32⟩ : BufTy).Contents (Elt F) :=
  addf
    (Host.scatterAdd scatter_S100000x128_S740000x1_S740000x128_1_0_0_1
      (broadcastInDim S100000x128 ![] bcast_S_S100000x128 (constant S_ .f32 0x00000000#32))
      (broadcastInDim S740000x1 ![0] bcast_S740000_S740000x1_0 dst)
      (mulf (Host.gather gather_S100000x128_S740000x1_S740000x128_1_0_n_n_0_1_1128 h (wrapCol src))
        (broadcastInDim S740000x128 ![0, 1] bcast_S740000x1_S740000x128_0_1
          (broadcastInDim S740000x1 ![0] bcast_S740000_S740000x1_0 w))))
    (broadcastInDim S100000x128 ![0, 1] bcast_S1x128_S100000x128_0_1 (broadcastInDim S1x128 ![1] bcast_S128_S1x128_1 b))

/-- The leaky rectifier, entrywise: x where x > 0, the slope times x elsewhere. -/
def act (x : (⟨S100000x128, .f32⟩ : BufTy).Contents (Elt F)) : (⟨S100000x128, .f32⟩ : BufTy).Contents (Elt F) :=
  select (cmpf .ogt x (broadcastInDim S100000x128 ![] bcast_S_S100000x128 (constant S_ .f32 0x00000000#32))) x
    (mulf (broadcastInDim S100000x128 ![] bcast_S_S100000x128 (constant S_ .f32 0x3C23D70A#32)) x)

/-- The rectified node array times a 128 × 128 matrix. -/
def dense (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none (act x) w

/-- One layer. -/
def layer (x : (⟨S100000x128, .f32⟩ : BufTy).Contents (Elt F)) (e : (⟨S2x640000, .i32⟩ : BufTy).Contents (Elt F))
    (w : (⟨S128x128, .f32⟩ : BufTy).Contents (Elt F)) (b : (⟨S128, .f32⟩ : BufTy).Contents (Elt F)) :
    (⟨S100000x128, .f32⟩ : BufTy).Contents (Elt F) :=
  agg (dense x w) (nodes0 e) (nodes1 e) (edgeW (nodes0 e) (nodes1 e)) b

/-- The three layers. -/
def net (x : (⟨S100000x128, .f32⟩ : BufTy).Contents (Elt F)) (e : (⟨S2x640000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F)) :
    (⟨S100000x128, .f32⟩ : BufTy).Contents (Elt F) :=
  layer (layer (layer x e w1 b1) e w2 b2) e w3 b3

end Cert.Gcn

end
-- ==== Proof.RunAll.lean ====
/-
  The idealized kernel program's run with its result named: every weakly fair execution of @main terminates, without a
  fault, the argument arrays as launched and the result array at the contents the last stretch of host operations
  leaves — the fold of @main's stretches and regions from the launch memory, taken at the result's buffer.
-/
import proofs.«160299_j35218731827634_2_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, read at the result's buffer as well as at the arguments': the last thread state holds
    every unscoped buffer at the last boundary's contents, and the result's buffer is one of them. -/
theorem run_result : θ_run defs (onTc (τ := τ) (main (F := F))) ⟨m, fun _ => 0, ρ⟩ (fun r => ∀ c : Dev nD,
      r.2.mem ((c.tc : Thread nD τ).loc main_v80) = W9 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v80 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.Gcn.KRun

end
-- ==== Proof.KHost.lean ====
/-
  The host operations of the kernel program, read as the terms of the network's specification.

  The kernel program's main function is host operations around three launches.  Before the first launch they build
  the two node lists (a row of the edge array followed by the self loops), the in-degrees, their inverse square
  roots and, from these, every edge's weight.  After each launch they read, for every edge, the sender's row of the
  launch's result, scale it by the edge's weight, add it into the receiver's row of a zero array and add the bias
  row.  Each such stretch of operations is a straight line, so what a buffer holds after it is the composition of
  the operations' functions along the line; that composition is, term for term, the specification's function
  (the node lists, the edge weights, the aggregation), and a buffer the line does not write holds what it held.
-/
import proofs.«160299_j35218731827634_2_alg».proof.Proof.Gen.KernelIdeal.Launch
import proofs.«160299_j35218731827634_2_alg».proof.Proof.Spec
import Idealize.ShloMosaic.Lib.StableHlo.Run

noncomputable section

namespace Cert.Gcn.KHost

open Cert.KernelIdeal Cert.KernelIdeal.Gen Idealize.ShloMosaic Idealize.ShloMosaic.StableHlo

variable {F : FTy → Type} [FloatOps F] (W : Valuation τ sig (Elt F))

/-! ## Before the first launch -/

/-- The buffers' contents when the first launch starts: the three stretches of host operations before it, in order
    (the middle one is the inverse square root's zero branch, a function of its own in the program's text). -/
abbrev pre (W : Valuation τ sig (Elt F)) : Valuation τ sig (Elt F) :=
  after hostOps0_2 (after hostOps0_1 (after hostOps0 W))

/-! ### The first stretch: the node lists, the degrees' comparison with zero and their inverse square roots -/

theorem ops0_v3 : after hostOps0 W (Proc.devRef .tc main_v3) = nodes0 (W (Proc.devRef .tc main_arg1)) := by
  after_results_simp
  rfl

theorem ops0_v6 : after hostOps0 W (Proc.devRef .tc main_v6) = nodes1 (W (Proc.devRef .tc main_arg1)) := by
  after_results_simp
  rfl

/-- The degrees are positive, entry by entry. -/
theorem ops0_v12 : after hostOps0 W (Proc.devRef .tc main_v12)
    = cmpf .ogt (degree (nodes1 (W (Proc.devRef .tc main_arg1))))
        (broadcastInDim S100000 ![] bcast_S_S100000 (constant S_ .f32 0x00000000#32)) := by
  after_results_simp
  rfl

/-- The degrees' inverse square roots, entry by entry. -/
theorem ops0_v13 : after hostOps0 W (Proc.devRef .tc main_v13)
    = Host.rsqrt (degree (nodes1 (W (Proc.devRef .tc main_arg1)))) := by
  after_results_simp
  rfl

/-- The zero of the inverse square root's other branch. -/
theorem ops0_cst_2 : after hostOps0 W (Proc.devRef .tc main_cst_2) = constant S_ .f32 0x00000000#32 := by
  after_results_simp

/-! ### The second stretch: the choice between the inverse square root and zero -/

theorem ops0_1_v14 : after hostOps0_1 W (Proc.devRef .tc main_v14)
    = select (W (Proc.devRef .tc main_v12)) (W (Proc.devRef .tc main_v13))
        (broadcastInDim S100000 ![] bcast_S_S100000 (id (W (Proc.devRef .tc main_cst_2)))) := by
  after_results_simp
  rfl

theorem ops0_1_v3 : after hostOps0_1 W (Proc.devRef .tc main_v3) = W (Proc.devRef .tc main_v3) := by
  after_results_simp

theorem ops0_1_v6 : after hostOps0_1 W (Proc.devRef .tc main_v6) = W (Proc.devRef .tc main_v6) := by
  after_results_simp

/-! ### The third stretch: the two ends' inverse square root degrees, multiplied -/

theorem ops0_2_v29 : after hostOps0_2 W (Proc.devRef .tc main_v29)
    = mulf (Host.gather Cert.ReferenceIdeal.gather_S100000_S740000x1_S740000_n_0_n_n_0_1_1 (W (Proc.devRef .tc main_v14))
          (wrapCol (W (Proc.devRef .tc main_v3))))
        (Host.gather Cert.ReferenceIdeal.gather_S100000_S740000x1_S740000_n_0_n_n_0_1_1 (W (Proc.devRef .tc main_v14))
          (wrapCol (W (Proc.devRef .tc main_v6)))) := by
  after_results_simp
  rfl

theorem ops0_2_v3 : after hostOps0_2 W (Proc.devRef .tc main_v3) = W (Proc.devRef .tc main_v3) := by
  after_results_simp

theorem ops0_2_v6 : after hostOps0_2 W (Proc.devRef .tc main_v6) = W (Proc.devRef .tc main_v6) := by
  after_results_simp

/-! ### The three stretches together -/

/-- The senders' list. -/
theorem pre_v3 : pre W (Proc.devRef .tc main_v3) = nodes0 (W (Proc.devRef .tc main_arg1)) :=
  (ops0_2_v3 _).trans ((ops0_1_v3 _).trans (ops0_v3 W))

/-- The receivers' list. -/
theorem pre_v6 : pre W (Proc.devRef .tc main_v6) = nodes1 (W (Proc.devRef .tc main_arg1)) :=
  (ops0_2_v6 _).trans ((ops0_1_v6 _).trans (ops0_v6 W))

/-- The edges' weights. -/
theorem pre_v29 : pre W (Proc.devRef .tc main_v29)
    = edgeW (nodes0 (W (Proc.devRef .tc main_arg1))) (nodes1 (W (Proc.devRef .tc main_arg1))) := by
  show after hostOps0_2 (after hostOps0_1 (after hostOps0 W)) (Proc.devRef .tc main_v29) = _
  rw [ops0_2_v29, ops0_1_v14, ops0_1_v3, ops0_1_v6, ops0_v12, ops0_v13, ops0_cst_2, ops0_v3, ops0_v6]
  rfl

/-- The arguments the operations before the first launch do not write are as they were. -/
theorem pre_arg0 : pre W (Proc.devRef .tc main_arg0) = W (Proc.devRef .tc main_arg0) := by
  after_results_simp
theorem pre_arg2 : pre W (Proc.devRef .tc main_arg2) = W (Proc.devRef .tc main_arg2) := by
  after_results_simp
theorem pre_arg3 : pre W (Proc.devRef .tc main_arg3) = W (Proc.devRef .tc main_arg3) := by
  after_results_simp
theorem pre_arg4 : pre W (Proc.devRef .tc main_arg4) = W (Proc.devRef .tc main_arg4) := by
  after_results_simp
theorem pre_arg5 : pre W (Proc.devRef .tc main_arg5) = W (Proc.devRef .tc main_arg5) := by
  after_results_simp
theorem pre_arg6 : pre W (Proc.devRef .tc main_arg6) = W (Proc.devRef .tc main_arg6) := by
  after_results_simp
theorem pre_arg7 : pre W (Proc.devRef .tc main_arg7) = W (Proc.devRef .tc main_arg7) := by
  after_results_simp

/-! ## After the first launch -/

/-- The first layer's aggregation of the launch's result. -/
theorem agg1 : after hostOps1 W (Proc.devRef .tc main_v46)
    = agg (W (Proc.devRef .tc main_v30)) (W (Proc.devRef .tc main_v3)) (W (Proc.devRef .tc main_v6))
        (W (Proc.devRef .tc main_v29)) (W (Proc.devRef .tc main_arg3)) := by
  after_results_simp
  rfl

theorem keep1_v3 : after hostOps1 W (Proc.devRef .tc main_v3) = W (Proc.devRef .tc main_v3) := by
  after_results_simp
theorem keep1_v6 : after hostOps1 W (Proc.devRef .tc main_v6) = W (Proc.devRef .tc main_v6) := by
  after_results_simp
theorem keep1_v29 : after hostOps1 W (Proc.devRef .tc main_v29) = W (Proc.devRef .tc main_v29) := by
  after_results_simp
theorem keep1_arg4 : after hostOps1 W (Proc.devRef .tc main_arg4) = W (Proc.devRef .tc main_arg4) := by
  after_results_simp
theorem keep1_arg5 : after hostOps1 W (Proc.devRef .tc main_arg5) = W (Proc.devRef .tc main_arg5) := by
  after_results_simp
theorem keep1_arg6 : after hostOps1 W (Proc.devRef .tc main_arg6) = W (Proc.devRef .tc main_arg6) := by
  after_results_simp
theorem keep1_arg7 : after hostOps1 W (Proc.devRef .tc main_arg7) = W (Proc.devRef .tc main_arg7) := by
  after_results_simp

/-! ## After the second launch -/

/-- The second layer's aggregation of the launch's result. -/
theorem agg2 : after hostOps2 W (Proc.devRef .tc main_v63)
    = agg (W (Proc.devRef .tc main_v47)) (W (Proc.devRef .tc main_v3)) (W (Proc.devRef .tc main_v6))
        (W (Proc.devRef .tc main_v29)) (W (Proc.devRef .tc main_arg5)) := by
  after_results_simp
  rfl

theorem keep2_v3 : after hostOps2 W (Proc.devRef .tc main_v3) = W (Proc.devRef .tc main_v3) := by
  after_results_simp
theorem keep2_v6 : after hostOps2 W (Proc.devRef .tc main_v6) = W (Proc.devRef .tc main_v6) := by
  after_results_simp
theorem keep2_v29 : after hostOps2 W (Proc.devRef .tc main_v29) = W (Proc.devRef .tc main_v29) := by
  after_results_simp
theorem keep2_arg6 : after hostOps2 W (Proc.devRef .tc main_arg6) = W (Proc.devRef .tc main_arg6) := by
  after_results_simp
theorem keep2_arg7 : after hostOps2 W (Proc.devRef .tc main_arg7) = W (Proc.devRef .tc main_arg7) := by
  after_results_simp

/-! ## After the third launch -/

/-- The third layer's aggregation of the launch's result. -/
theorem agg3 : after hostOps3 W (Proc.devRef .tc main_v80)
    = agg (W (Proc.devRef .tc main_v64)) (W (Proc.devRef .tc main_v3)) (W (Proc.devRef .tc main_v6))
        (W (Proc.devRef .tc main_v29)) (W (Proc.devRef .tc main_arg7)) := by
  after_results_simp
  rfl

end Cert.Gcn.KHost

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.DenseAt.lean ====
/-
  The rectified matrix product, entry by entry, on both sides.

  Write a(x) for the scalar leaky rectifier on extended reals: x where x > 0, the slope times x elsewhere.  Entry
  (r, q) of the specification's product of a node array X : [100000, 128] with a matrix W : [128, 128] is
  ∑ₖ a(X(r, k)) · W(k, q).  One launch of the kernel body on a block x0 : [10000, 128] and the matrix x1 : [128, 128]
  stores, at (p, q), ∑ₖ a(x0(p, k)) · x1(k, q).  So when x0 is rows 10000·b … 10000·b + 9999 of X and x1 is W, the
  stored block is rows 10000·b … of the specification's product: the same sum of the same products, term by term.
-/
import proofs.«160299_j35218731827634_2_alg».proof.Proof.Spec
import proofs.«160299_j35218731827634_2_alg».proof.Proof.LibDense
import proofs.«160299_j35218731827634_2_alg».proof.Proof.Gen.KernelIdeal.Skeleton
import Idealize.ShloMosaic.Lib.Pipeline.Value

noncomputable section

namespace Cert.Gcn.Region

open Idealize.ShloMosaic Idealize.ShloMosaic.ValueIdx

/-- The zero offsets of a whole-buffer access, as a constant function. -/
theorem zero_off : (![0, 0] : Fin 2 → Nat) = fun _ => 0 := funext fun a => by fin_cases a <;> rfl

/-- The scalar leaky rectifier on extended reals: x where x > 0, the slope times x elsewhere. -/
def leaky (x : Ideal .f32) : Ideal .f32 :=
  Scalar.select (FloatOps.cmpf .ogt x (Ideal.ofBits .f32 0x00000000#32)) x (Ideal.ofBits .f32 0x3C23D70A#32 * x)

/-- The rectified node array at an index is the rectifier of the entry. -/
theorem act_apply (X : FVec Ideal ⟨2, ![100000, 128]⟩ .f32) (i : (⟨2, ![100000, 128]⟩ : Shape).Idx) :
    Cert.Gcn.act (F := Ideal) X i = leaky (X i) := rfl

/-- Entry (r, q) of the specification's product: the sum over k of a(X(r, k)) · W(k, q). -/
theorem dense_apply (X : FVec Ideal ⟨2, ![100000, 128]⟩ .f32) (W : FVec Ideal ⟨2, ![128, 128]⟩ .f32)
    (r : Fin 100000) (q : Fin 128) :
    Cert.Gcn.dense (F := Ideal) X W (ix2 r q) = ∑ k : Fin 128, leaky (X (ix2 r k)) * W (ix2 k q) := by
  unfold Cert.Gcn.dense
  refine (Cert.LibDense.plain_dotGeneral_apply (M := 100000) (K := 128) (N := 128) none .single
    (Cert.Gcn.act (F := Ideal) X) W r q).trans ?_
  rfl

/-- Entry (p, q) of the block one launch of the body stores: the sum over k of a(x0(p, k)) · x1(k, q). -/
theorem pay0_apply (x0 : FVec Ideal ⟨2, ![10000, 128]⟩ .f32) (x1 : FVec Ideal ⟨2, ![128, 128]⟩ .f32)
    (p : Fin 10000) (q : Fin 128) :
    Cert.KernelIdeal.Gen.k0_pay1 (F := Ideal) x0 x1 (ix2 p q) = ∑ k : Fin 128, leaky (x0 (ix2 p k)) * x1 (ix2 k q) := by
  unfold Cert.KernelIdeal.Gen.k0_pay1
  refine (Cert.LibDense.plain_matmul_apply (M := 10000) (K := 128) (N := 128) (some .fp32) _ x1 p q).trans ?_
  rfl

/-- The second and third launches' bodies first recast the block to its own shape, which changes nothing. -/
theorem pay1_eq (x0 : FVec Ideal ⟨2, ![10000, 128]⟩ .f32) (x1 : FVec Ideal ⟨2, ![128, 128]⟩ .f32) :
    Cert.KernelIdeal.Gen.k1_pay1 (F := Ideal) x0 x1 = Cert.KernelIdeal.Gen.k0_pay1 x0 x1 := by
  unfold Cert.KernelIdeal.Gen.k1_pay1 Cert.KernelIdeal.Gen.k0_pay1
  simp only [shapeCast_self]

theorem pay2_eq (x0 : FVec Ideal ⟨2, ![10000, 128]⟩ .f32) (x1 : FVec Ideal ⟨2, ![128, 128]⟩ .f32) :
    Cert.KernelIdeal.Gen.k2_pay1 (F := Ideal) x0 x1 = Cert.KernelIdeal.Gen.k0_pay1 x0 x1 := by
  unfold Cert.KernelIdeal.Gen.k2_pay1 Cert.KernelIdeal.Gen.k0_pay1
  simp only [shapeCast_self]

/-- A STORED BLOCK IS ITS ROWS OF THE PRODUCT.  If x0 is rows 10000·b … of X (`hx0`, stated on coordinates) and x1 is
    W, the stored block at y is the specification's product at the array index i that sits at row 10000·b + y₀ and
    column y₁: both are ∑ₖ a(X(10000·b + y₀, k)) · W(k, y₁). -/
theorem block_value (X : FVec Ideal ⟨2, ![100000, 128]⟩ .f32) (W : FVec Ideal ⟨2, ![128, 128]⟩ .f32)
    (x0 : FVec Ideal ⟨2, ![10000, 128]⟩ .f32) (x1 : FVec Ideal ⟨2, ![128, 128]⟩ .f32) (b : ℕ)
    (hx0 : ∀ (y' : (⟨2, ![10000, 128]⟩ : Shape).Idx) (i' : (⟨2, ![100000, 128]⟩ : Shape).Idx),
      (i' 0).val = b * 10000 + (y' 0).val → (i' 1).val = (y' 1).val → x0 y' = X i')
    (hx1 : ∀ z : (⟨2, ![128, 128]⟩ : Shape).Idx, x1 z = W z)
    (y : (⟨2, ![10000, 128]⟩ : Shape).Idx) (i : (⟨2, ![100000, 128]⟩ : Shape).Idx)
    (hi0 : (i 0).val = b * 10000 + (y 0).val) (hi1 : (i 1).val = (y 1).val) :
    Cert.KernelIdeal.Gen.k0_pay1 (F := Ideal) x0 x1 y = Cert.Gcn.dense (F := Ideal) X W i := by
  obtain ⟨p, q, rfl⟩ : ∃ (p : Fin 10000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hi1
  rw [pay0_apply, dense_apply]
  refine Finset.sum_congr rfl fun k _ => ?_
  rw [hx0 (ix2 p k) (ix2 r k) hi0 rfl, hx1]

/-- The same for the second launch's body, which differs only by the recast. -/
theorem block_value1 (X : FVec Ideal ⟨2, ![100000, 128]⟩ .f32) (W : FVec Ideal ⟨2, ![128, 128]⟩ .f32)
    (x0 : FVec Ideal ⟨2, ![10000, 128]⟩ .f32) (x1 : FVec Ideal ⟨2, ![128, 128]⟩ .f32) (b : ℕ)
    (hx0 : ∀ (y' : (⟨2, ![10000, 128]⟩ : Shape).Idx) (i' : (⟨2, ![100000, 128]⟩ : Shape).Idx),
      (i' 0).val = b * 10000 + (y' 0).val → (i' 1).val = (y' 1).val → x0 y' = X i')
    (hx1 : ∀ z : (⟨2, ![128, 128]⟩ : Shape).Idx, x1 z = W z)
    (y : (⟨2, ![10000, 128]⟩ : Shape).Idx) (i : (⟨2, ![100000, 128]⟩ : Shape).Idx)
    (hi0 : (i 0).val = b * 10000 + (y 0).val) (hi1 : (i 1).val = (y 1).val) :
    Cert.KernelIdeal.Gen.k1_pay1 (F := Ideal) x0 x1 y = Cert.Gcn.dense (F := Ideal) X W i := by
  rw [pay1_eq]
  exact block_value X W x0 x1 b hx0 hx1 y i hi0 hi1

/-- The same for the third launch's body, which differs only by the recast. -/
theorem block_value2 (X : FVec Ideal ⟨2, ![100000, 128]⟩ .f32) (W : FVec Ideal ⟨2, ![128, 128]⟩ .f32)
    (x0 : FVec Ideal ⟨2, ![10000, 128]⟩ .f32) (x1 : FVec Ideal ⟨2, ![128, 128]⟩ .f32) (b : ℕ)
    (hx0 : ∀ (y' : (⟨2, ![10000, 128]⟩ : Shape).Idx) (i' : (⟨2, ![100000, 128]⟩ : Shape).Idx),
      (i' 0).val = b * 10000 + (y' 0).val → (i' 1).val = (y' 1).val → x0 y' = X i')
    (hx1 : ∀ z : (⟨2, ![128, 128]⟩ : Shape).Idx, x1 z = W z)
    (y : (⟨2, ![10000, 128]⟩ : Shape).Idx) (i : (⟨2, ![100000, 128]⟩ : Shape).Idx)
    (hi0 : (i 0).val = b * 10000 + (y 0).val) (hi1 : (i 1).val = (y 1).val) :
    Cert.KernelIdeal.Gen.k2_pay1 (F := Ideal) x0 x1 y = Cert.Gcn.dense (F := Ideal) X W i := by
  rw [pay2_eq]
  exact block_value X W x0 x1 b hx0 hx1 y i hi0 hi1

end Cert.Gcn.Region

end
-- ==== Proof.Region0.lean ====
/-
  The first launch's output array is the specification's product of its input array with its matrix.

  The grid has ten points; point t stages rows 10000·t … 10000·t + 9999 of the node array (block index (t, 0) of
  blocks [10000, 128]) and the whole matrix (block index (0, 0)), and writes the body's result back to the same rows
  of the output array.  By `block_value` what point t writes back is rows 10000·t … of the product; row r of the
  output lies in the block of point r / 10000, so the ten blocks cover the array, and the array ends holding the
  product.
-/
import proofs.«160299_j35218731827634_2_alg».proof.Proof.DenseAt
import proofs.«160299_j35218731827634_2_alg».proof.Proof.Gen.KernelIdeal.Frame
import Idealize.ShloMosaic.Lib.Pipeline.Value

noncomputable section

namespace Cert.Gcn.Region

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The printed index maps over the ten grid points: the node array's block and the output's block at point t are
    row block t, column block 0; the matrix's block is always (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node array's block at point t is rows 10000·t … 10000·t + 9999 of the array: its entry y is the array's entry
    at row 10000·t + y₀, column y₁. -/
theorem rows_block0 (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : S100000x128.Idx → Elt Ideal .f32) i := by
  obtain ⟨e0, e1, -, -, -, -⟩ := index_facts0 t
  unfold iblk0
  rw [View.read_apply]
  show (V c main_arg0 : S100000x128.Idx → Elt Ideal .f32) _ = (V c main_arg0 : S100000x128.Idx → Elt Ideal .f32) _
  refine congrArg (V c main_arg0 : S100000x128.Idx → Elt Ideal .f32) ?_
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega

/-- The matrix's block at every point is the whole matrix. -/
theorem matrix_block0 (c : Dev nD) (t : Fin cfg0.N) (z : S128x128.Idx) :
    (iblk0 V c 1 t : Vec Ideal S128x128 .f32) z = (V c main_arg2 : S128x128.Idx → Elt Ideal .f32) z := by
  obtain ⟨-, -, e2, e3, -, -⟩ := index_facts0 t
  unfold iblk0
  rw [View.read_apply]
  show (V c main_arg2 : S128x128.Idx → Elt Ideal .f32) _ = (V c main_arg2 : S128x128.Idx → Elt Ideal .f32) _
  refine congrArg (V c main_arg2 : S128x128.Idx → Elt Ideal .f32) ?_
  funext a
  apply Fin.ext
  match a with
  | ⟨0, _⟩ => show win0_1.index t 0 * 128 + 1 * (z 0).val = (z 0).val; rw [e2]; omega
  | ⟨1, _⟩ => show win0_1.index t 1 * 128 + 1 * (z 1).val = (z 1).val; rw [e3]; omega

/-- WHAT POINT t WRITES BACK is block t of the product of the arrays as the launch finds them. -/
theorem flushed0_eq (c : Dev nD) (t : Fin cfg0.N) :
    (dat0 (F := Ideal) V c).flushed 2 t
      = ((cfg0.win 2).blk t).view.read (Elt Ideal) (Cert.Gcn.dense (F := Ideal) (V c main_arg0) (V c main_arg2)) := by
  show (cfg0.win 2).cut (grid0.coords t) ((dat0 (F := Ideal) V c).after 2 t) = _
  rw [after0_2]
  unfold out0_2
  rw [View.canon_unit_zero zero_off]
  simp only [View.ld_unit_zero (S := S10000x128) zero_off, View.ld_unit_zero (S := S128x128) zero_off]
  obtain ⟨-, -, -, -, e4, e5⟩ := index_facts0 t
  funext j
  show k0_pay1 (F := Ideal) (iblk0 V c 0 t) (iblk0 V c 1 t) j
    = Cert.Gcn.dense (F := Ideal) (V c main_arg0) (V c main_arg2) (((cfg0.win 2).blk t).view.emb j)
  refine block_value (V c main_arg0) (V c main_arg2) (iblk0 V c 0 t) (iblk0 V c 1 t) t.val
    (fun y' i' h0 h1 => rows_block0 V c t y' i' h0 h1) (fun z => matrix_block0 V c t z) j _ ?_ ?_
  · show win0_2.index t 0 * 10000 + 1 * (j 0).val = t.val * 10000 + (j 0).val
    rw [e4]; omega
  · show win0_2.index t 1 * 128 + 1 * (j 1).val = (j 1).val
    rw [e5]; omega

/-- An index of the output array is in point t's block iff each coordinate is in the block's range on its axis. -/
theorem mem_block0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- Every index of the output array is in some point's block: row r is in the block of point r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := index_facts0 t
  refine ⟨t, flush0_2 t, ?_⟩
  rw [mem_block0]
  intro a
  match a with
  | ⟨0, _⟩ =>
    show win0_2.index t 0 * 10000 ≤ (i 0).val ∧ (i 0).val < win0_2.index t 0 * 10000 + 10000
    rw [e4, ht]; omega
  | ⟨1, _⟩ =>
    show win0_2.index t 1 * 128 ≤ (i 1).val ∧ (i 1).val < win0_2.index t 1 * 128 + 128
    rw [e5]; omega

/-- THE OUTPUT ARRAY after the launch is the product of the input array, rectified, with the matrix. -/
theorem final0 (V : (c : Dev nD) → (b : Ref sig .tc) → Buf (Elt Ideal) ((c : Thread nD τ).loc b)) (c : Dev nD) :
    (dat0 (F := Ideal) V c).arrAt 2 cfg0.N = Cert.Gcn.dense (F := Ideal) (V c main_arg0) (V c main_arg2) :=
  (dat0 (F := Ideal) V c).arrAt_eq_of_cover 2 (Cert.Gcn.dense (F := Ideal) (V c main_arg0) (V c main_arg2))
    (fun t _ => flushed0_eq V c t) cover0

end Cert.Gcn.Region

end
-- ==== Proof.Region1.lean ====
/-
  The second launch's output array is the specification's product of its input array with its matrix.

  The grid has ten points; point t stages rows 10000·t … 10000·t + 9999 of the node array (block index (t, 0) of
  blocks [10000, 128]) and the whole matrix (block index (0, 0)), and writes the body's result back to the same rows
  of the output array.  By `block_value` what point t writes back is rows 10000·t … of the product; row r of the
  output lies in the block of point r / 10000, so the ten blocks cover the array, and the array ends holding the
  product.
-/
import proofs.«160299_j35218731827634_2_alg».proof.Proof.DenseAt
import proofs.«160299_j35218731827634_2_alg».proof.Proof.Gen.KernelIdeal.Frame
import Idealize.ShloMosaic.Lib.Pipeline.Value

noncomputable section

namespace Cert.Gcn.Region

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The printed index maps over the ten grid points: the node array's block and the output's block at point t are
    row block t, column block 0; the matrix's block is always (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The node array's block at point t is rows 10000·t … 10000·t + 9999 of the array: its entry y is the array's entry
    at row 10000·t + y₀, column y₁. -/
theorem rows_block1 (c : Dev nD) (t : Fin cfg1.N) (y : S10000x128.Idx) (i : S100000x128.Idx)
    (h0 : (i 0).val = t.val * 10000 + (y 0).val) (h1 : (i 1).val = (y 1).val) :
    (iblk1 V c 0 t : Vec Ideal S10000x128 .f32) y = (V c main_v46 : S100000x128.Idx → Elt Ideal .f32) i := by
  obtain ⟨e0, e1, -, -, -, -⟩ := index_facts1 t
  unfold iblk1
  rw [View.read_apply]
  show (V c main_v46 : S100000x128.Idx → Elt Ideal .f32) _ = (V c main_v46 : S100000x128.Idx → Elt Ideal .f32) _
  refine congrArg (V c main_v46 : S100000x128.Idx → Elt Ideal .f32) ?_
  funext a
  apply Fin.ext
  match a with
  | ⟨0, _⟩ => show win1_0.index t 0 * 10000 + 1 * (y 0).val = (i 0).val; rw [e0, h0]; omega
  | ⟨1, _⟩ => show win1_0.index t 1 * 128 + 1 * (y 1).val = (i 1).val; rw [e1, h1]; omega

/-- The matrix's block at every point is the whole matrix. -/
theorem matrix_block1 (c : Dev nD) (t : Fin cfg1.N) (z : S128x128.Idx) :
    (iblk1 V c 1 t : Vec Ideal S128x128 .f32) z = (V c main_arg4 : S128x128.Idx → Elt Ideal .f32) z := by
  obtain ⟨-, -, e2, e3, -, -⟩ := index_facts1 t
  unfold iblk1
  rw [View.read_apply]
  show (V c main_arg4 : S128x128.Idx → Elt Ideal .f32) _ = (V c main_arg4 : S128x128.Idx → Elt Ideal .f32) _
  refine congrArg (V c main_arg4 : S128x128.Idx → Elt Ideal .f32) ?_
  funext a
  apply Fin.ext
  match a with
  | ⟨0, _⟩ => show win1_1.index t 0 * 128 + 1 * (z 0).val = (z 0).val; rw [e2]; omega
  | ⟨1, _⟩ => show win1_1.index t 1 * 128 + 1 * (z 1).val = (z 1).val; rw [e3]; omega

/-- WHAT POINT t WRITES BACK is block t of the product of the arrays as the launch finds them. -/
theorem flushed1_eq (c : Dev nD) (t : Fin cfg1.N) :
    (dat1 (F := Ideal) V c).flushed 2 t
      = ((cfg1.win 2).blk t).view.read (Elt Ideal) (Cert.Gcn.dense (F := Ideal) (V c main_v46) (V c main_arg4)) := by
  show (cfg1.win 2).cut (grid1.coords t) ((dat1 (F := Ideal) V c).after 2 t) = _
  rw [after1_2]
  unfold out1_2
  rw [View.canon_unit_zero zero_off]
  simp only [View.ld_unit_zero (S := S10000x128) zero_off, View.ld_unit_zero (S := S128x128) zero_off]
  obtain ⟨-, -, -, -, e4, e5⟩ := index_facts1 t
  funext j
  show k1_pay1 (F := Ideal) (iblk1 V c 0 t) (iblk1 V c 1 t) j
    = Cert.Gcn.dense (F := Ideal) (V c main_v46) (V c main_arg4) (((cfg1.win 2).blk t).view.emb j)
  refine block_value1 (V c main_v46) (V c main_arg4) (iblk1 V c 0 t) (iblk1 V c 1 t) t.val
    (fun y' i' h0 h1 => rows_block1 V c t y' i' h0 h1) (fun z => matrix_block1 V c t z) j _ ?_ ?_
  · show win1_2.index t 0 * 10000 + 1 * (j 0).val = t.val * 10000 + (j 0).val
    rw [e4]; omega
  · show win1_2.index t 1 * 128 + 1 * (j 1).val = (j 1).val
    rw [e5]; omega

/-- An index of the output array is in point t's block iff each coordinate is in the block's range on its axis. -/
theorem mem_block1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v47).slice (win1_2.rect t)).set ↔ _
  rw [View.set_slice_whole, Rect.mem_set_unit]
  exact Iff.rfl

/-- Every index of the output array is in some point's block: row r is in the block of point r / 10000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e4, e5⟩ := index_facts1 t
  refine ⟨t, flush1_2 t, ?_⟩
  rw [mem_block1]
  intro a
  match a with
  | ⟨0, _⟩ =>
    show win1_2.index t 0 * 10000 ≤ (i 0).val ∧ (i 0).val < win1_2.index t 0 * 10000 + 10000
    rw [e4, ht]; omega
  | ⟨1, _⟩ =>
    show win1_2.index t 1 * 128 ≤ (i 1).val ∧ (i 1).val < win1_2.index t 1 * 128 + 128
    rw [e5]; omega

/-- THE OUTPUT ARRAY after the launch is the product of the input array, rectified, with the matrix. -/
theorem final1 (V : (c : Dev nD) → (b : Ref sig .tc) → Buf (Elt Ideal) ((c : Thread nD τ).loc b)) (c : Dev nD) :
    (dat1 (F := Ideal) V c).arrAt 2 cfg1.N = Cert.Gcn.dense (F := Ideal) (V c main_v46) (V c main_arg4) :=
  (dat1 (F := Ideal) V c).arrAt_eq_of_cover 2 (Cert.Gcn.dense (F := Ideal) (V c main_v46) (V c main_arg4))
    (fun t _ => flushed1_eq V c t) cover1

end Cert.Gcn.Region

end
-- ==== Proof.Region2.lean ====
/-
  The third launch's output array is the specification's product of its input array with its matrix.

  The grid has ten points; point t stages rows 10000·t … 10000·t + 9999 of the node array (block index (t, 0) of
  blocks [10000, 128]) and the whole matrix (block index (0, 0)), and writes the body's result back to the same rows
  of the output array.  By `block_value` what point t writes back is rows 10000·t … of the product; row r of the
  output lies in the block of point r / 10000, so the ten blocks cover the array, and the array ends holding the
  product.
-/
import proofs.«160299_j35218731827634_2_alg».proof.Proof.DenseAt
import proofs.«160299_j35218731827634_2_alg».proof.Proof.Gen.KernelIdeal.Frame
import Idealize.ShloMosaic.Lib.Pipeline.Value

noncomputable section

namespace Cert.Gcn.Region

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The printed index maps over the ten grid points: the node array's block and the output's block at point t are
    row block t, column block 0; the matrix's block is always (0, 0). -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The node array's block at point t is rows 10000·t … 10000·t + 9999 of the array: its entry y is the array's entry
    at row 10000·t + y₀, column y₁. -/
theorem rows_block2 (c : Dev nD) (t : Fin cfg2.N) (y : S10000x128.Idx) (i : S100000x128.Idx)
    (h0 : (i 0).val = t.val * 10000 + (y 0).val) (h1 : (i 1).val = (y 1).val) :
    (iblk2 V c 0 t : Vec Ideal S10000x128 .f32) y = (V c main_v63 : S100000x128.Idx → Elt Ideal .f32) i := by
  obtain ⟨e0, e1, -, -, -, -⟩ := index_facts2 t
  unfold iblk2
  rw [View.read_apply]
  show (V c main_v63 : S100000x128.Idx → Elt Ideal .f32) _ = (V c main_v63 : S100000x128.Idx → Elt Ideal .f32) _
  refine congrArg (V c main_v63 : S100000x128.Idx → Elt Ideal .f32) ?_
  funext a
  apply Fin.ext
  match a with
  | ⟨0, _⟩ => show win2_0.index t 0 * 10000 + 1 * (y 0).val = (i 0).val; rw [e0, h0]; omega
  | ⟨1, _⟩ => show win2_0.index t 1 * 128 + 1 * (y 1).val = (i 1).val; rw [e1, h1]; omega

/-- The matrix's block at every point is the whole matrix. -/
theorem matrix_block2 (c : Dev nD) (t : Fin cfg2.N) (z : S128x128.Idx) :
    (iblk2 V c 1 t : Vec Ideal S128x128 .f32) z = (V c main_arg6 : S128x128.Idx → Elt Ideal .f32) z := by
  obtain ⟨-, -, e2, e3, -, -⟩ := index_facts2 t
  unfold iblk2
  rw [View.read_apply]
  show (V c main_arg6 : S128x128.Idx → Elt Ideal .f32) _ = (V c main_arg6 : S128x128.Idx → Elt Ideal .f32) _
  refine congrArg (V c main_arg6 : S128x128.Idx → Elt Ideal .f32) ?_
  funext a
  apply Fin.ext
  match a with
  | ⟨0, _⟩ => show win2_1.index t 0 * 128 + 1 * (z 0).val = (z 0).val; rw [e2]; omega
  | ⟨1, _⟩ => show win2_1.index t 1 * 128 + 1 * (z 1).val = (z 1).val; rw [e3]; omega

/-- WHAT POINT t WRITES BACK is block t of the product of the arrays as the launch finds them. -/
theorem flushed2_eq (c : Dev nD) (t : Fin cfg2.N) :
    (dat2 (F := Ideal) V c).flushed 2 t
      = ((cfg2.win 2).blk t).view.read (Elt Ideal) (Cert.Gcn.dense (F := Ideal) (V c main_v63) (V c main_arg6)) := by
  show (cfg2.win 2).cut (grid2.coords t) ((dat2 (F := Ideal) V c).after 2 t) = _
  rw [after2_2]
  unfold out2_2
  rw [View.canon_unit_zero zero_off]
  simp only [View.ld_unit_zero (S := S10000x128) zero_off, View.ld_unit_zero (S := S128x128) zero_off]
  obtain ⟨-, -, -, -, e4, e5⟩ := index_facts2 t
  funext j
  show k2_pay1 (F := Ideal) (iblk2 V c 0 t) (iblk2 V c 1 t) j
    = Cert.Gcn.dense (F := Ideal) (V c main_v63) (V c main_arg6) (((cfg2.win 2).blk t).view.emb j)
  refine block_value2 (V c main_v63) (V c main_arg6) (iblk2 V c 0 t) (iblk2 V c 1 t) t.val
    (fun y' i' h0 h1 => rows_block2 V c t y' i' h0 h1) (fun z => matrix_block2 V c t z) j _ ?_ ?_
  · show win2_2.index t 0 * 10000 + 1 * (j 0).val = t.val * 10000 + (j 0).val
    rw [e4]; omega
  · show win2_2.index t 1 * 128 + 1 * (j 1).val = (j 1).val
    rw [e5]; omega

/-- An index of the output array is in point t's block iff each coordinate is in the block's range on its axis. -/
theorem mem_block2 (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v64).slice (win2_2.rect t)).set ↔ _
  rw [View.set_slice_whole, Rect.mem_set_unit]
  exact Iff.rfl

/-- Every index of the output array is in some point's block: row r is in the block of point r / 10000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := index_facts2 t
  refine ⟨t, flush2_2 t, ?_⟩
  rw [mem_block2]
  intro a
  match a with
  | ⟨0, _⟩ =>
    show win2_2.index t 0 * 10000 ≤ (i 0).val ∧ (i 0).val < win2_2.index t 0 * 10000 + 10000
    rw [e4, ht]; omega
  | ⟨1, _⟩ =>
    show win2_2.index t 1 * 128 ≤ (i 1).val ∧ (i 1).val < win2_2.index t 1 * 128 + 128
    rw [e5]; omega

/-- THE OUTPUT ARRAY after the launch is the product of the input array, rectified, with the matrix. -/
theorem final2 (V : (c : Dev nD) → (b : Ref sig .tc) → Buf (Elt Ideal) ((c : Thread nD τ).loc b)) (c : Dev nD) :
    (dat2 (F := Ideal) V c).arrAt 2 cfg2.N = Cert.Gcn.dense (F := Ideal) (V c main_v63) (V c main_arg6) :=
  (dat2 (F := Ideal) V c).arrAt_eq_of_cover 2 (Cert.Gcn.dense (F := Ideal) (V c main_v63) (V c main_arg6))
    (fun t _ => flushed2_eq V c t) cover2

end Cert.Gcn.Region

end
-- ==== Proof.Chain.lean ====
/-
  The result buffer's contents at the end of the idealized kernel program, walked back through @main: three times
  a stretch of host operations (the edge aggregation of the array a launch left, plus a bias) after a launch (the
  rectified array times a weight matrix, assembled from its ten row blocks), from the node lists and edge weights
  the first stretch computes.  Every buffer a stretch or a launch does not write keeps its contents, so the node
  lists, the edge weights and the arguments are read where they were made.
-/
import proofs.«160299_j35218731827634_2_alg».proof.Proof.Gen.KernelIdeal.Frame
import proofs.«160299_j35218731827634_2_alg».proof.Proof.Spec
import proofs.«160299_j35218731827634_2_alg».proof.Proof.KHost
import proofs.«160299_j35218731827634_2_alg».proof.Proof.Region0
import proofs.«160299_j35218731827634_2_alg».proof.Proof.Region1
import proofs.«160299_j35218731827634_2_alg».proof.Proof.Region2
import Idealize.ShloMosaic.PureOps.Ideal

noncomputable section

namespace Cert.Gcn.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Up to the first launch -/

theorem w3_v3 : W3 m ρ c (Proc.devRef .tc main_v3) = Cert.Gcn.nodes0 (m ((c : Thread nD τ).loc main_arg1)) := Cert.Gcn.KHost.pre_v3 (W0 m ρ c)
theorem w3_v6 : W3 m ρ c (Proc.devRef .tc main_v6) = Cert.Gcn.nodes1 (m ((c : Thread nD τ).loc main_arg1)) := Cert.Gcn.KHost.pre_v6 (W0 m ρ c)
theorem w3_v29 : W3 m ρ c (Proc.devRef .tc main_v29) = Cert.Gcn.edgeW (Cert.Gcn.nodes0 (m ((c : Thread nD τ).loc main_arg1))) (Cert.Gcn.nodes1 (m ((c : Thread nD τ).loc main_arg1))) :=
  Cert.Gcn.KHost.pre_v29 (W0 m ρ c)
theorem w3_arg0 : W3 m ρ c (Proc.devRef .tc main_arg0) = (m ((c : Thread nD τ).loc main_arg0)) := Cert.Gcn.KHost.pre_arg0 (W0 m ρ c)
theorem w3_arg2 : W3 m ρ c (Proc.devRef .tc main_arg2) = (m ((c : Thread nD τ).loc main_arg2)) := Cert.Gcn.KHost.pre_arg2 (W0 m ρ c)
theorem w3_arg3 : W3 m ρ c (Proc.devRef .tc main_arg3) = (m ((c : Thread nD τ).loc main_arg3)) := Cert.Gcn.KHost.pre_arg3 (W0 m ρ c)
theorem w3_arg4 : W3 m ρ c (Proc.devRef .tc main_arg4) = (m ((c : Thread nD τ).loc main_arg4)) := Cert.Gcn.KHost.pre_arg4 (W0 m ρ c)
theorem w3_arg5 : W3 m ρ c (Proc.devRef .tc main_arg5) = (m ((c : Thread nD τ).loc main_arg5)) := Cert.Gcn.KHost.pre_arg5 (W0 m ρ c)
theorem w3_arg6 : W3 m ρ c (Proc.devRef .tc main_arg6) = (m ((c : Thread nD τ).loc main_arg6)) := Cert.Gcn.KHost.pre_arg6 (W0 m ρ c)
theorem w3_arg7 : W3 m ρ c (Proc.devRef .tc main_arg7) = (m ((c : Thread nD τ).loc main_arg7)) := Cert.Gcn.KHost.pre_arg7 (W0 m ρ c)

/-! ## The first launch and the stretch after it -/

theorem w4_v3 : W4 m ρ c (Proc.devRef .tc main_v3) = W3 m ρ c (Proc.devRef .tc main_v3) := W4_of_ne m ρ c main_v3 (by decide)
theorem w4_v6 : W4 m ρ c (Proc.devRef .tc main_v6) = W3 m ρ c (Proc.devRef .tc main_v6) := W4_of_ne m ρ c main_v6 (by decide)
theorem w4_v29 : W4 m ρ c (Proc.devRef .tc main_v29) = W3 m ρ c (Proc.devRef .tc main_v29) := W4_of_ne m ρ c main_v29 (by decide)
theorem w4_arg3 : W4 m ρ c (Proc.devRef .tc main_arg3) = W3 m ρ c (Proc.devRef .tc main_arg3) := W4_of_ne m ρ c main_arg3 (by decide)
theorem w4_arg4 : W4 m ρ c (Proc.devRef .tc main_arg4) = W3 m ρ c (Proc.devRef .tc main_arg4) := W4_of_ne m ρ c main_arg4 (by decide)
theorem w4_arg5 : W4 m ρ c (Proc.devRef .tc main_arg5) = W3 m ρ c (Proc.devRef .tc main_arg5) := W4_of_ne m ρ c main_arg5 (by decide)
theorem w4_arg6 : W4 m ρ c (Proc.devRef .tc main_arg6) = W3 m ρ c (Proc.devRef .tc main_arg6) := W4_of_ne m ρ c main_arg6 (by decide)
theorem w4_arg7 : W4 m ρ c (Proc.devRef .tc main_arg7) = W3 m ρ c (Proc.devRef .tc main_arg7) := W4_of_ne m ρ c main_arg7 (by decide)

theorem w4_v30 : W4 m ρ c (Proc.devRef .tc main_v30) = Cert.Gcn.dense (m ((c : Thread nD τ).loc main_arg0)) (m ((c : Thread nD τ).loc main_arg2)) := by
  refine (W4_arr m ρ c 2).trans ((Cert.Gcn.Region.final0 (V3 m ρ) c).trans ?_)
  rw [show V3 m ρ c main_arg0 = (m ((c : Thread nD τ).loc main_arg0)) from w3_arg0 m ρ c, show V3 m ρ c main_arg2 = (m ((c : Thread nD τ).loc main_arg2)) from w3_arg2 m ρ c]

/-- The node array after the first layer. -/
theorem w5_v46 : W5 m ρ c (Proc.devRef .tc main_v46) = Cert.Gcn.layer (m ((c : Thread nD τ).loc main_arg0)) (m ((c : Thread nD τ).loc main_arg1)) (m ((c : Thread nD τ).loc main_arg2)) (m ((c : Thread nD τ).loc main_arg3)) := by
  refine (Cert.Gcn.KHost.agg1 (W4 m ρ c)).trans ?_
  rw [w4_v30, w4_v3, w4_v6, w4_v29, w4_arg3, w3_v3, w3_v6, w3_v29, w3_arg3]
  rfl

theorem w5_v3 : W5 m ρ c (Proc.devRef .tc main_v3) = W4 m ρ c (Proc.devRef .tc main_v3) := Cert.Gcn.KHost.keep1_v3 (W4 m ρ c)
theorem w5_v6 : W5 m ρ c (Proc.devRef .tc main_v6) = W4 m ρ c (Proc.devRef .tc main_v6) := Cert.Gcn.KHost.keep1_v6 (W4 m ρ c)
theorem w5_v29 : W5 m ρ c (Proc.devRef .tc main_v29) = W4 m ρ c (Proc.devRef .tc main_v29) := Cert.Gcn.KHost.keep1_v29 (W4 m ρ c)
theorem w5_arg4 : W5 m ρ c (Proc.devRef .tc main_arg4) = W4 m ρ c (Proc.devRef .tc main_arg4) := Cert.Gcn.KHost.keep1_arg4 (W4 m ρ c)
theorem w5_arg5 : W5 m ρ c (Proc.devRef .tc main_arg5) = W4 m ρ c (Proc.devRef .tc main_arg5) := Cert.Gcn.KHost.keep1_arg5 (W4 m ρ c)
theorem w5_arg6 : W5 m ρ c (Proc.devRef .tc main_arg6) = W4 m ρ c (Proc.devRef .tc main_arg6) := Cert.Gcn.KHost.keep1_arg6 (W4 m ρ c)
theorem w5_arg7 : W5 m ρ c (Proc.devRef .tc main_arg7) = W4 m ρ c (Proc.devRef .tc main_arg7) := Cert.Gcn.KHost.keep1_arg7 (W4 m ρ c)

/-! ## The second launch and the stretch after it -/

theorem w6_v3 : W6 m ρ c (Proc.devRef .tc main_v3) = W5 m ρ c (Proc.devRef .tc main_v3) := W6_of_ne m ρ c main_v3 (by decide)
theorem w6_v6 : W6 m ρ c (Proc.devRef .tc main_v6) = W5 m ρ c (Proc.devRef .tc main_v6) := W6_of_ne m ρ c main_v6 (by decide)
theorem w6_v29 : W6 m ρ c (Proc.devRef .tc main_v29) = W5 m ρ c (Proc.devRef .tc main_v29) := W6_of_ne m ρ c main_v29 (by decide)
theorem w6_arg5 : W6 m ρ c (Proc.devRef .tc main_arg5) = W5 m ρ c (Proc.devRef .tc main_arg5) := W6_of_ne m ρ c main_arg5 (by decide)
theorem w6_arg6 : W6 m ρ c (Proc.devRef .tc main_arg6) = W5 m ρ c (Proc.devRef .tc main_arg6) := W6_of_ne m ρ c main_arg6 (by decide)
theorem w6_arg7 : W6 m ρ c (Proc.devRef .tc main_arg7) = W5 m ρ c (Proc.devRef .tc main_arg7) := W6_of_ne m ρ c main_arg7 (by decide)

theorem w6_v47 : W6 m ρ c (Proc.devRef .tc main_v47) = Cert.Gcn.dense (Cert.Gcn.layer (m ((c : Thread nD τ).loc main_arg0)) (m ((c : Thread nD τ).loc main_arg1)) (m ((c : Thread nD τ).loc main_arg2)) (m ((c : Thread nD τ).loc main_arg3))) (m ((c : Thread nD τ).loc main_arg4)) := by
  refine (W6_arr m ρ c 2).trans ((Cert.Gcn.Region.final1 (V5 m ρ) c).trans ?_)
  rw [show V5 m ρ c main_v46 = _ from w5_v46 m ρ c,
    show V5 m ρ c main_arg4 = (m ((c : Thread nD τ).loc main_arg4)) from (w5_arg4 m ρ c).trans ((w4_arg4 m ρ c).trans (w3_arg4 m ρ c))]

/-- The node array after the second layer. -/
theorem w7_v63 : W7 m ρ c (Proc.devRef .tc main_v63) = Cert.Gcn.layer (Cert.Gcn.layer (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) := by
  refine (Cert.Gcn.KHost.agg2 (W6 m ρ c)).trans ?_
  rw [w6_v47, w6_v3, w6_v6, w6_v29, w6_arg5, w5_v3, w5_v6, w5_v29, w5_arg5, w4_v3, w4_v6, w4_v29, w4_arg5, w3_v3, w3_v6, w3_v29, w3_arg5]
  rfl

theorem w7_v3 : W7 m ρ c (Proc.devRef .tc main_v3) = W6 m ρ c (Proc.devRef .tc main_v3) := Cert.Gcn.KHost.keep2_v3 (W6 m ρ c)
theorem w7_v6 : W7 m ρ c (Proc.devRef .tc main_v6) = W6 m ρ c (Proc.devRef .tc main_v6) := Cert.Gcn.KHost.keep2_v6 (W6 m ρ c)
theorem w7_v29 : W7 m ρ c (Proc.devRef .tc main_v29) = W6 m ρ c (Proc.devRef .tc main_v29) := Cert.Gcn.KHost.keep2_v29 (W6 m ρ c)
theorem w7_arg6 : W7 m ρ c (Proc.devRef .tc main_arg6) = W6 m ρ c (Proc.devRef .tc main_arg6) := Cert.Gcn.KHost.keep2_arg6 (W6 m ρ c)
theorem w7_arg7 : W7 m ρ c (Proc.devRef .tc main_arg7) = W6 m ρ c (Proc.devRef .tc main_arg7) := Cert.Gcn.KHost.keep2_arg7 (W6 m ρ c)

/-! ## The third launch and the last stretch -/

theorem w8_v3 : W8 m ρ c (Proc.devRef .tc main_v3) = W7 m ρ c (Proc.devRef .tc main_v3) := W8_of_ne m ρ c main_v3 (by decide)
theorem w8_v6 : W8 m ρ c (Proc.devRef .tc main_v6) = W7 m ρ c (Proc.devRef .tc main_v6) := W8_of_ne m ρ c main_v6 (by decide)
theorem w8_v29 : W8 m ρ c (Proc.devRef .tc main_v29) = W7 m ρ c (Proc.devRef .tc main_v29) := W8_of_ne m ρ c main_v29 (by decide)
theorem w8_arg7 : W8 m ρ c (Proc.devRef .tc main_arg7) = W7 m ρ c (Proc.devRef .tc main_arg7) := W8_of_ne m ρ c main_arg7 (by decide)

theorem w8_v64 : W8 m ρ c (Proc.devRef .tc main_v64) = Cert.Gcn.dense (Cert.Gcn.layer (Cert.Gcn.layer (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)) := by
  refine (W8_arr m ρ c 2).trans ((Cert.Gcn.Region.final2 (V7 m ρ) c).trans ?_)
  rw [show V7 m ρ c main_v63 = _ from w7_v63 m ρ c,
    show V7 m ρ c main_arg6 = (m ((c : Thread nD τ).loc main_arg6)) from (w7_arg6 m ρ c).trans ((w6_arg6 m ρ c).trans ((w5_arg6 m ρ c).trans ((w4_arg6 m ρ c).trans (w3_arg6 m ρ c))))]

/-- THE RESULT: the three layers of the arguments. -/
theorem w9_v80 : W9 m ρ c (Proc.devRef .tc main_v80) = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (Cert.Gcn.KHost.agg3 (W8 m ρ c)).trans ?_
  rw [w8_v64, w8_v3, w8_v6, w8_v29, w8_arg7, w7_v3, w7_v6, w7_v29, w7_arg7, w6_v3, w6_v6, w6_v29, w6_arg7, w5_v3, w5_v6, w5_v29, w5_arg7,
    w4_v3, w4_v6, w4_v29, w4_arg7, w3_v3, w3_v6, w3_v29, w3_arg7]
  rfl

end Cert.Gcn.Chain

end
-- ==== Proof.LibAfter.lean ====
/-
  The fold of a list of host operations over the buffers' contents, one stretch after the other: running the operations
  of `l₁ ++ l₂` from contents `V` is running `l₂` from what `l₁` leaves.
-/
import Idealize.ShloMosaic.Lib.StableHlo.Run

namespace Cert.LibAfter

open Idealize.ShloMosaic Idealize.ShloMosaic.StableHlo

variable {τ : Topo} {sig : RefSig} {Val : EltTy → Type}

/-- The contents after two stretches of operations are the second stretch's, from the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter
-- ==== Proof.RefSide.lean ====
/-
  The reference program's line of 187 host operations, read in ten stretches: the two node lists; then three times
  the rectifier with the matrix product, the degrees with the edge weights, the aggregation with the bias.  Each
  stretch's result at its last buffer is the corresponding function of Proof/Spec.lean of the contents it found, a
  buffer a stretch does not write keeps its contents, and the stretches chain to the three layers of the arguments.
  The edge weights of every layer are the same function of the same two node lists.
-/
import proofs.«160299_j35218731827634_2_alg».proof.Proof.RefRun
import proofs.«160299_j35218731827634_2_alg».proof.Proof.Spec
import proofs.«160299_j35218731827634_2_alg».proof.Proof.LibAfter

noncomputable section

namespace Cert.Gcn.Ref

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-! ## The stretches -/

/-- Operations 1 … 7 of @main: the two node lists. -/
abbrev opsN : List (HloOp τ sig (Elt F)) :=
  [ nullary main_v0 (iotaInDim S100000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)) ]
/-- The buffers they write. -/
abbrev opsN_W : List (Ref sig .tc) := [main_v0, main_v1, main_v2, main_v3, main_v4, main_v5, main_v6]
theorem opsN_writes : (opsN : List (HloOp τ sig (Elt F))).Forall fun op => op.writes ⊆ (opsN_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents. -/
theorem keepN (W : Valuation τ sig (Elt F)) (r : Ref sig .tc) (h : r ∉ opsN_W) :
    after (opsN (F := F)) W (Proc.devRef .tc r) = W (Proc.devRef .tc r) :=
  after_of_writes_sub opsN _ opsN_writes h

/-- Operations 8 … 15 of @main: layer 1: the rectifier and the matrix product. -/
abbrev opsD1 : List (HloOp τ sig (Elt F)) :=
  [ nullary main_cst (constant S_ .f32 0x00000000#32),
    unary main_cst main_v7 (broadcastInDim S100000x128 ![] bcast_S_S100000x128 : (⟨S_, .f32⟩ : BufTy).Contents (Elt F) → (⟨S100000x128, .f32⟩ : BufTy).Contents (Elt F)),
    binary main_arg0 main_v7 main_v8 (cmpf .ogt : (⟨S100000x128, .f32⟩ : BufTy).Contents (Elt F) → (⟨S100000x128, .f32⟩ : BufTy).Contents (Elt F) → (⟨S100000x128, .i1⟩ : BufTy).Contents (Elt F)),
    nullary main_cst_0 (constant S_ .f32 0x3C23D70A#32),
    unary main_cst_0 main_v9 (broadcastInDim S100000x128 ![] bcast_S_S100000x128 : (⟨S_, .f32⟩ : BufTy).Contents (Elt F) → (⟨S100000x128, .f32⟩ : BufTy).Contents (Elt F)),
    binary main_v9 main_arg0 main_v10 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v8) (TRef.of (T := ⟨S100000x128, .f32⟩) main_arg0) (TRef.of (T := ⟨S100000x128, .f32⟩) main_v10) (TRef.of (T := ⟨S100000x128, .f32⟩) main_v11) select,
    binary main_v11 main_arg2 main_v12 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers they write. -/
abbrev opsD1_W : List (Ref sig .tc) := [main_cst, main_v7, main_v8, main_cst_0, main_v9, main_v10, main_v11, main_v12]
theorem opsD1_writes : (opsD1 : List (HloOp τ sig (Elt F))).Forall fun op => op.writes ⊆ (opsD1_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents. -/
theorem keepD1 (W : Valuation τ sig (Elt F)) (r : Ref sig .tc) (h : r ∉ opsD1_W) :
    after (opsD1 (F := F)) W (Proc.devRef .tc r) = W (Proc.devRef .tc r) :=
  after_of_writes_sub opsD1 _ opsD1_writes h

/-- Operations 16 … 48 of @main: layer 1: the degrees and the edge weights. -/
abbrev opsE1 : List (HloOp τ sig (Elt F)) :=
  [ nullary main_cst_1 (constant S_ .f32 0x3F800000#32),
    unary main_cst_1 main_v13 (broadcastInDim S740000 ![] bcast_S_S740000 : (⟨S_, .f32⟩ : BufTy).Contents (Elt F) → (⟨S740000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    unary main_v6 main_v15 (broadcastInDim S740000x1 ![0] bcast_S740000_S740000x1_0 : (⟨S740000, .i32⟩ : BufTy).Contents (Elt F) → (⟨S740000x1, .i32⟩ : BufTy).Contents (Elt F)),
    ternary main_v14 main_v15 main_v13 main_v16 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_3 (constant S_ .f32 0x00000000#32),
    unary main_cst_3 main_v17 (broadcastInDim S100000 ![] bcast_S_S100000 : (⟨S_, .f32⟩ : BufTy).Contents (Elt F) → (⟨S100000, .f32⟩ : BufTy).Contents (Elt F)),
    binary main_v16 main_v17 main_v18 (cmpf .ogt : (⟨S100000, .f32⟩ : BufTy).Contents (Elt F) → (⟨S100000, .f32⟩ : BufTy).Contents (Elt F) → (⟨S100000, .i1⟩ : BufTy).Contents (Elt F)),
    unary main_v16 main_v19 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v18) (TRef.of (T := ⟨S100000, .f32⟩) main_v19) (TRef.of (T := ⟨S100000, .f32⟩) main_call1_v1) (TRef.of (T := ⟨S100000, .f32⟩) main_v20) select,
    nullary main_c (constantI S_ 32 0#32),
    unary main_c main_v21 (broadcastInDim S740000 ![] bcast_S_S740000 : (⟨S_, .i32⟩ : BufTy).Contents (Elt F) → (⟨S740000, .i32⟩ : BufTy).Contents (Elt F)),
    binary main_v3 main_v21 main_v22 (cmpi .slt : (⟨S740000, .i32⟩ : BufTy).Contents (Elt F) → (⟨S740000, .i32⟩ : BufTy).Contents (Elt F) → (⟨S740000, .i1⟩ : BufTy).Contents (Elt F)),
    nullary main_c_5 (constantI S_ 32 100000#32),
    unary main_c_5 main_v23 (broadcastInDim S740000 ![] bcast_S_S740000 : (⟨S_, .i32⟩ : BufTy).Contents (Elt F) → (⟨S740000, .i32⟩ : BufTy).Contents (Elt F)),
    binary main_v3 main_v23 main_v24 (addi : (⟨S740000, .i32⟩ : BufTy).Contents (Elt F) → (⟨S740000, .i32⟩ : BufTy).Contents (Elt F) → (⟨S740000, .i32⟩ : BufTy).Contents (Elt F)),
    ternary main_v22 main_v24 main_v3 main_v25 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v25 main_v26 (broadcastInDim S740000x1 ![0] bcast_S740000_S740000x1_0 : (⟨S740000, .i32⟩ : BufTy).Contents (Elt F) → (⟨S740000x1, .i32⟩ : BufTy).Contents (Elt F)),
    binary main_v20 main_v26 main_v27 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_6 (constantI S_ 32 0#32),
    unary main_c_6 main_v28 (broadcastInDim S740000 ![] bcast_S_S740000 : (⟨S_, .i32⟩ : BufTy).Contents (Elt F) → (⟨S740000, .i32⟩ : BufTy).Contents (Elt F)),
    binary main_v6 main_v28 main_v29 (cmpi .slt : (⟨S740000, .i32⟩ : BufTy).Contents (Elt F) → (⟨S740000, .i32⟩ : BufTy).Contents (Elt F) → (⟨S740000, .i1⟩ : BufTy).Contents (Elt F)),
    nullary main_c_7 (constantI S_ 32 100000#32),
    unary main_c_7 main_v30 (broadcastInDim S740000 ![] bcast_S_S740000 : (⟨S_, .i32⟩ : BufTy).Contents (Elt F) → (⟨S740000, .i32⟩ : BufTy).Contents (Elt F)),
    binary main_v6 main_v30 main_v31 (addi : (⟨S740000, .i32⟩ : BufTy).Contents (Elt F) → (⟨S740000, .i32⟩ : BufTy).Contents (Elt F) → (⟨S740000, .i32⟩ : BufTy).Contents (Elt F)),
    ternary main_v29 main_v31 main_v6 main_v32 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v32 main_v33 (broadcastInDim S740000x1 ![0] bcast_S740000_S740000x1_0 : (⟨S740000, .i32⟩ : BufTy).Contents (Elt F) → (⟨S740000x1, .i32⟩ : BufTy).Contents (Elt F)),
    binary main_v20 main_v33 main_v34 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v27 main_v34 main_v35 (mulf : (⟨S740000, .f32⟩ : BufTy).Contents (Elt F) → (⟨S740000, .f32⟩ : BufTy).Contents (Elt F) → (⟨S740000, .f32⟩ : BufTy).Contents (Elt F)) ]
/-- The buffers they write. -/
abbrev opsE1_W : List (Ref sig .tc) := [main_cst_1, main_v13, main_cst_2, main_v14, main_v15, main_v16, main_cst_3, main_v17, main_v18, main_v19, main_cst_4, main_call1_v0, main_call1_v1, main_v20, main_c, main_v21, main_v22, main_c_5, main_v23, main_v24, main_v25, main_v26, main_v27, main_c_6, main_v28, main_v29, main_c_7, main_v30, main_v31, main_v32, main_v33, main_v34, main_v35]
theorem opsE1_writes : (opsE1 : List (HloOp τ sig (Elt F))).Forall fun op => op.writes ⊆ (opsE1_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents. -/
theorem keepE1 (W : Valuation τ sig (Elt F)) (r : Ref sig .tc) (h : r ∉ opsE1_W) :
    after (opsE1 (F := F)) W (Proc.devRef .tc r) = W (Proc.devRef .tc r) :=
  after_of_writes_sub opsE1 _ opsE1_writes h

/-- Operations 49 … 67 of @main: layer 1: the aggregation and the bias. -/
abbrev opsG1 : List (HloOp τ sig (Elt F)) :=
  [ nullary main_c_8 (constantI S_ 32 0#32),
    unary main_c_8 main_v36 (broadcastInDim S740000 ![] bcast_S_S740000 : (⟨S_, .i32⟩ : BufTy).Contents (Elt F) → (⟨S740000, .i32⟩ : BufTy).Contents (Elt F)),
    binary main_v3 main_v36 main_v37 (cmpi .slt : (⟨S740000, .i32⟩ : BufTy).Contents (Elt F) → (⟨S740000, .i32⟩ : BufTy).Contents (Elt F) → (⟨S740000, .i1⟩ : BufTy).Contents (Elt F)),
    nullary main_c_9 (constantI S_ 32 100000#32),
    unary main_c_9 main_v38 (broadcastInDim S740000 ![] bcast_S_S740000 : (⟨S_, .i32⟩ : BufTy).Contents (Elt F) → (⟨S740000, .i32⟩ : BufTy).Contents (Elt F)),
    binary main_v3 main_v38 main_v39 (addi : (⟨S740000, .i32⟩ : BufTy).Contents (Elt F) → (⟨S740000, .i32⟩ : BufTy).Contents (Elt F) → (⟨S740000, .i32⟩ : BufTy).Contents (Elt F)),
    ternary main_v37 main_v39 main_v3 main_v40 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v40 main_v41 (broadcastInDim S740000x1 ![0] bcast_S740000_S740000x1_0 : (⟨S740000, .i32⟩ : BufTy).Contents (Elt F) → (⟨S740000x1, .i32⟩ : BufTy).Contents (Elt F)),
    binary main_v12 main_v41 main_v42 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v35 main_v43 (broadcastInDim S740000x1 ![0] bcast_S740000_S740000x1_0 : (⟨S740000, .f32⟩ : BufTy).Contents (Elt F) → (⟨S740000x1, .f32⟩ : BufTy).Contents (Elt F)),
    unary main_v43 main_v44 (broadcastInDim S740000x128 ![0, 1] bcast_S740000x1_S740000x128_0_1 : (⟨S740000x1, .f32⟩ : BufTy).Contents (Elt F) → (⟨S740000x128, .f32⟩ : BufTy).Contents (Elt F)),
    binary main_v42 main_v44 main_v45 (mulf : (⟨S740000x128, .f32⟩ : BufTy).Contents (Elt F) → (⟨S740000x128, .f32⟩ : BufTy).Contents (Elt F) → (⟨S740000x128, .f32⟩ : BufTy).Contents (Elt F)),
    nullary main_cst_10 (constant S_ .f32 0x00000000#32),
    unary main_cst_10 main_v46 (broadcastInDim S100000x128 ![] bcast_S_S100000x128 : (⟨S_, .f32⟩ : BufTy).Contents (Elt F) → (⟨S100000x128, .f32⟩ : BufTy).Contents (Elt F)),
    unary main_v6 main_v47 (broadcastInDim S740000x1 ![0] bcast_S740000_S740000x1_0 : (⟨S740000, .i32⟩ : BufTy).Contents (Elt F) → (⟨S740000x1, .i32⟩ : BufTy).Contents (Elt F)),
    ternary main_v46 main_v47 main_v45 main_v48 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg3 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)) ]
/-- The buffers they write. -/
abbrev opsG1_W : List (Ref sig .tc) := [main_c_8, main_v36, main_v37, main_c_9, main_v38, main_v39, main_v40, main_v41, main_v42, main_v43, main_v44, main_v45, main_cst_10, main_v46, main_v47, main_v48, main_v49, main_v50, main_v51]
theorem opsG1_writes : (opsG1 : List (HloOp τ sig (Elt F))).Forall fun op => op.writes ⊆ (opsG1_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents. -/
theorem keepG1 (W : Valuation τ sig (Elt F)) (r : Ref sig .tc) (h : r ∉ opsG1_W) :
    after (opsG1 (F := F)) W (Proc.devRef .tc r) = W (Proc.devRef .tc r) :=
  after_of_writes_sub opsG1 _ opsG1_writes h

/-- Operations 68 … 75 of @main: layer 2: the rectifier and the matrix product. -/
abbrev opsD2 : List (HloOp τ sig (Elt F)) :=
  [ nullary main_cst_11 (constant S_ .f32 0x00000000#32),
    unary main_cst_11 main_v52 (broadcastInDim S100000x128 ![] bcast_S_S100000x128 : (⟨S_, .f32⟩ : BufTy).Contents (Elt F) → (⟨S100000x128, .f32⟩ : BufTy).Contents (Elt F)),
    binary main_v51 main_v52 main_v53 (cmpf .ogt : (⟨S100000x128, .f32⟩ : BufTy).Contents (Elt F) → (⟨S100000x128, .f32⟩ : BufTy).Contents (Elt F) → (⟨S100000x128, .i1⟩ : BufTy).Contents (Elt F)),
    nullary main_cst_12 (constant S_ .f32 0x3C23D70A#32),
    unary main_cst_12 main_v54 (broadcastInDim S100000x128 ![] bcast_S_S100000x128 : (⟨S_, .f32⟩ : BufTy).Contents (Elt F) → (⟨S100000x128, .f32⟩ : BufTy).Contents (Elt F)),
    binary main_v54 main_v51 main_v55 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v53) (TRef.of (T := ⟨S100000x128, .f32⟩) main_v51) (TRef.of (T := ⟨S100000x128, .f32⟩) main_v55) (TRef.of (T := ⟨S100000x128, .f32⟩) main_v56) select,
    binary main_v56 main_arg4 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers they write. -/
abbrev opsD2_W : List (Ref sig .tc) := [main_cst_11, main_v52, main_v53, main_cst_12, main_v54, main_v55, main_v56, main_v57]
theorem opsD2_writes : (opsD2 : List (HloOp τ sig (Elt F))).Forall fun op => op.writes ⊆ (opsD2_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents. -/
theorem keepD2 (W : Valuation τ sig (Elt F)) (r : Ref sig .tc) (h : r ∉ opsD2_W) :
    after (opsD2 (F := F)) W (Proc.devRef .tc r) = W (Proc.devRef .tc r) :=
  after_of_writes_sub opsD2 _ opsD2_writes h

/-- Operations 76 … 108 of @main: layer 2: the degrees and the edge weights. -/
abbrev opsE2 : List (HloOp τ sig (Elt F)) :=
  [ nullary main_cst_13 (constant S_ .f32 0x3F800000#32),
    unary main_cst_13 main_v58 (broadcastInDim S740000 ![] bcast_S_S740000 : (⟨S_, .f32⟩ : BufTy).Contents (Elt F) → (⟨S740000, .f32⟩ : BufTy).Contents (Elt F)),
    nullary main_cst_14 (constant S_ .f32 0x00000000#32),
    unary main_cst_14 main_v59 (broadcastInDim S100000 ![] bcast_S_S100000 : (⟨S_, .f32⟩ : BufTy).Contents (Elt F) → (⟨S100000, .f32⟩ : BufTy).Contents (Elt F)),
    unary main_v6 main_v60 (broadcastInDim S740000x1 ![0] bcast_S740000_S740000x1_0 : (⟨S740000, .i32⟩ : BufTy).Contents (Elt F) → (⟨S740000x1, .i32⟩ : BufTy).Contents (Elt F)),
    ternary main_v59 main_v60 main_v58 main_v61 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_15 (constant S_ .f32 0x00000000#32),
    unary main_cst_15 main_v62 (broadcastInDim S100000 ![] bcast_S_S100000 : (⟨S_, .f32⟩ : BufTy).Contents (Elt F) → (⟨S100000, .f32⟩ : BufTy).Contents (Elt F)),
    binary main_v61 main_v62 main_v63 (cmpf .ogt : (⟨S100000, .f32⟩ : BufTy).Contents (Elt F) → (⟨S100000, .f32⟩ : BufTy).Contents (Elt F) → (⟨S100000, .i1⟩ : BufTy).Contents (Elt F)),
    unary main_v61 main_v64 (Host.rsqrt : (⟨S100000, .f32⟩ : BufTy).Contents (Elt F) → (⟨S100000, .f32⟩ : BufTy).Contents (Elt F)),
    nullary main_cst_16 (constant S_ .f32 0x00000000#32),
    TRef.unary (TRef.of (T := ⟨S_, .f32⟩) main_cst_16) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v63) (TRef.of (T := ⟨S100000, .f32⟩) main_v64) (TRef.of (T := ⟨S100000, .f32⟩) main_call3_v1) (TRef.of (T := ⟨S100000, .f32⟩) main_v65) select,
    nullary main_c_17 (constantI S_ 32 0#32),
    unary main_c_17 main_v66 (broadcastInDim S740000 ![] bcast_S_S740000 : (⟨S_, .i32⟩ : BufTy).Contents (Elt F) → (⟨S740000, .i32⟩ : BufTy).Contents (Elt F)),
    binary main_v3 main_v66 main_v67 (cmpi .slt : (⟨S740000, .i32⟩ : BufTy).Contents (Elt F) → (⟨S740000, .i32⟩ : BufTy).Contents (Elt F) → (⟨S740000, .i1⟩ : BufTy).Contents (Elt F)),
    nullary main_c_18 (constantI S_ 32 100000#32),
    unary main_c_18 main_v68 (broadcastInDim S740000 ![] bcast_S_S740000 : (⟨S_, .i32⟩ : BufTy).Contents (Elt F) → (⟨S740000, .i32⟩ : BufTy).Contents (Elt F)),
    binary main_v3 main_v68 main_v69 (addi : (⟨S740000, .i32⟩ : BufTy).Contents (Elt F) → (⟨S740000, .i32⟩ : BufTy).Contents (Elt F) → (⟨S740000, .i32⟩ : BufTy).Contents (Elt F)),
    ternary main_v67 main_v69 main_v3 main_v70 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v70 main_v71 (broadcastInDim S740000x1 ![0] bcast_S740000_S740000x1_0 : (⟨S740000, .i32⟩ : BufTy).Contents (Elt F) → (⟨S740000x1, .i32⟩ : BufTy).Contents (Elt F)),
    binary main_v65 main_v71 main_v72 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_19 (constantI S_ 32 0#32),
    unary main_c_19 main_v73 (broadcastInDim S740000 ![] bcast_S_S740000 : (⟨S_, .i32⟩ : BufTy).Contents (Elt F) → (⟨S740000, .i32⟩ : BufTy).Contents (Elt F)),
    binary main_v6 main_v73 main_v74 (cmpi .slt : (⟨S740000, .i32⟩ : BufTy).Contents (Elt F) → (⟨S740000, .i32⟩ : BufTy).Contents (Elt F) → (⟨S740000, .i1⟩ : BufTy).Contents (Elt F)),
    nullary main_c_20 (constantI S_ 32 100000#32),
    unary main_c_20 main_v75 (broadcastInDim S740000 ![] bcast_S_S740000 : (⟨S_, .i32⟩ : BufTy).Contents (Elt F) → (⟨S740000, .i32⟩ : BufTy).Contents (Elt F)),
    binary main_v6 main_v75 main_v76 (addi : (⟨S740000, .i32⟩ : BufTy).Contents (Elt F) → (⟨S740000, .i32⟩ : BufTy).Contents (Elt F) → (⟨S740000, .i32⟩ : BufTy).Contents (Elt F)),
    ternary main_v74 main_v76 main_v6 main_v77 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v77 main_v78 (broadcastInDim S740000x1 ![0] bcast_S740000_S740000x1_0 : (⟨S740000, .i32⟩ : BufTy).Contents (Elt F) → (⟨S740000x1, .i32⟩ : BufTy).Contents (Elt F)),
    binary main_v65 main_v78 main_v79 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v72 main_v79 main_v80 (mulf : (⟨S740000, .f32⟩ : BufTy).Contents (Elt F) → (⟨S740000, .f32⟩ : BufTy).Contents (Elt F) → (⟨S740000, .f32⟩ : BufTy).Contents (Elt F)) ]
/-- The buffers they write. -/
abbrev opsE2_W : List (Ref sig .tc) := [main_cst_13, main_v58, main_cst_14, main_v59, main_v60, main_v61, main_cst_15, main_v62, main_v63, main_v64, main_cst_16, main_call3_v0, main_call3_v1, main_v65, main_c_17, main_v66, main_v67, main_c_18, main_v68, main_v69, main_v70, main_v71, main_v72, main_c_19, main_v73, main_v74, main_c_20, main_v75, main_v76, main_v77, main_v78, main_v79, main_v80]
theorem opsE2_writes : (opsE2 : List (HloOp τ sig (Elt F))).Forall fun op => op.writes ⊆ (opsE2_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents. -/
theorem keepE2 (W : Valuation τ sig (Elt F)) (r : Ref sig .tc) (h : r ∉ opsE2_W) :
    after (opsE2 (F := F)) W (Proc.devRef .tc r) = W (Proc.devRef .tc r) :=
  after_of_writes_sub opsE2 _ opsE2_writes h

/-- Operations 109 … 127 of @main: layer 2: the aggregation and the bias. -/
abbrev opsG2 : List (HloOp τ sig (Elt F)) :=
  [ nullary main_c_21 (constantI S_ 32 0#32),
    unary main_c_21 main_v81 (broadcastInDim S740000 ![] bcast_S_S740000 : (⟨S_, .i32⟩ : BufTy).Contents (Elt F) → (⟨S740000, .i32⟩ : BufTy).Contents (Elt F)),
    binary main_v3 main_v81 main_v82 (cmpi .slt : (⟨S740000, .i32⟩ : BufTy).Contents (Elt F) → (⟨S740000, .i32⟩ : BufTy).Contents (Elt F) → (⟨S740000, .i1⟩ : BufTy).Contents (Elt F)),
    nullary main_c_22 (constantI S_ 32 100000#32),
    unary main_c_22 main_v83 (broadcastInDim S740000 ![] bcast_S_S740000 : (⟨S_, .i32⟩ : BufTy).Contents (Elt F) → (⟨S740000, .i32⟩ : BufTy).Contents (Elt F)),
    binary main_v3 main_v83 main_v84 (addi : (⟨S740000, .i32⟩ : BufTy).Contents (Elt F) → (⟨S740000, .i32⟩ : BufTy).Contents (Elt F) → (⟨S740000, .i32⟩ : BufTy).Contents (Elt F)),
    ternary main_v82 main_v84 main_v3 main_v85 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v85 main_v86 (broadcastInDim S740000x1 ![0] bcast_S740000_S740000x1_0 : (⟨S740000, .i32⟩ : BufTy).Contents (Elt F) → (⟨S740000x1, .i32⟩ : BufTy).Contents (Elt F)),
    binary main_v57 main_v86 main_v87 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v80 main_v88 (broadcastInDim S740000x1 ![0] bcast_S740000_S740000x1_0 : (⟨S740000, .f32⟩ : BufTy).Contents (Elt F) → (⟨S740000x1, .f32⟩ : BufTy).Contents (Elt F)),
    unary main_v88 main_v89 (broadcastInDim S740000x128 ![0, 1] bcast_S740000x1_S740000x128_0_1 : (⟨S740000x1, .f32⟩ : BufTy).Contents (Elt F) → (⟨S740000x128, .f32⟩ : BufTy).Contents (Elt F)),
    binary main_v87 main_v89 main_v90 (mulf : (⟨S740000x128, .f32⟩ : BufTy).Contents (Elt F) → (⟨S740000x128, .f32⟩ : BufTy).Contents (Elt F) → (⟨S740000x128, .f32⟩ : BufTy).Contents (Elt F)),
    nullary main_cst_23 (constant S_ .f32 0x00000000#32),
    unary main_cst_23 main_v91 (broadcastInDim S100000x128 ![] bcast_S_S100000x128 : (⟨S_, .f32⟩ : BufTy).Contents (Elt F) → (⟨S100000x128, .f32⟩ : BufTy).Contents (Elt F)),
    unary main_v6 main_v92 (broadcastInDim S740000x1 ![0] bcast_S740000_S740000x1_0 : (⟨S740000, .i32⟩ : BufTy).Contents (Elt F) → (⟨S740000x1, .i32⟩ : BufTy).Contents (Elt F)),
    ternary main_v91 main_v92 main_v90 main_v93 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg5 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (addf : (⟨S100000x128, .f32⟩ : BufTy).Contents (Elt F) → (⟨S100000x128, .f32⟩ : BufTy).Contents (Elt F) → (⟨S100000x128, .f32⟩ : BufTy).Contents (Elt F)) ]
/-- The buffers they write. -/
abbrev opsG2_W : List (Ref sig .tc) := [main_c_21, main_v81, main_v82, main_c_22, main_v83, main_v84, main_v85, main_v86, main_v87, main_v88, main_v89, main_v90, main_cst_23, main_v91, main_v92, main_v93, main_v94, main_v95, main_v96]
theorem opsG2_writes : (opsG2 : List (HloOp τ sig (Elt F))).Forall fun op => op.writes ⊆ (opsG2_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents. -/
theorem keepG2 (W : Valuation τ sig (Elt F)) (r : Ref sig .tc) (h : r ∉ opsG2_W) :
    after (opsG2 (F := F)) W (Proc.devRef .tc r) = W (Proc.devRef .tc r) :=
  after_of_writes_sub opsG2 _ opsG2_writes h

/-- Operations 128 … 135 of @main: layer 3: the rectifier and the matrix product. -/
abbrev opsD3 : List (HloOp τ sig (Elt F)) :=
  [ nullary main_cst_24 (constant S_ .f32 0x00000000#32),
    unary main_cst_24 main_v97 (broadcastInDim S100000x128 ![] bcast_S_S100000x128 : (⟨S_, .f32⟩ : BufTy).Contents (Elt F) → (⟨S100000x128, .f32⟩ : BufTy).Contents (Elt F)),
    binary main_v96 main_v97 main_v98 (cmpf .ogt : (⟨S100000x128, .f32⟩ : BufTy).Contents (Elt F) → (⟨S100000x128, .f32⟩ : BufTy).Contents (Elt F) → (⟨S100000x128, .i1⟩ : BufTy).Contents (Elt F)),
    nullary main_cst_25 (constant S_ .f32 0x3C23D70A#32),
    unary main_cst_25 main_v99 (broadcastInDim S100000x128 ![] bcast_S_S100000x128 : (⟨S_, .f32⟩ : BufTy).Contents (Elt F) → (⟨S100000x128, .f32⟩ : BufTy).Contents (Elt F)),
    binary main_v99 main_v96 main_v100 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v98) (TRef.of (T := ⟨S100000x128, .f32⟩) main_v96) (TRef.of (T := ⟨S100000x128, .f32⟩) main_v100) (TRef.of (T := ⟨S100000x128, .f32⟩) main_v101) select,
    binary main_v101 main_arg6 main_v102 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers they write. -/
abbrev opsD3_W : List (Ref sig .tc) := [main_cst_24, main_v97, main_v98, main_cst_25, main_v99, main_v100, main_v101, main_v102]
theorem opsD3_writes : (opsD3 : List (HloOp τ sig (Elt F))).Forall fun op => op.writes ⊆ (opsD3_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents. -/
theorem keepD3 (W : Valuation τ sig (Elt F)) (r : Ref sig .tc) (h : r ∉ opsD3_W) :
    after (opsD3 (F := F)) W (Proc.devRef .tc r) = W (Proc.devRef .tc r) :=
  after_of_writes_sub opsD3 _ opsD3_writes h

/-- Operations 136 … 168 of @main: layer 3: the degrees and the edge weights. -/
abbrev opsE3 : List (HloOp τ sig (Elt F)) :=
  [ nullary main_cst_26 (constant S_ .f32 0x3F800000#32),
    unary main_cst_26 main_v103 (broadcastInDim S740000 ![] bcast_S_S740000 : (⟨S_, .f32⟩ : BufTy).Contents (Elt F) → (⟨S740000, .f32⟩ : BufTy).Contents (Elt F)),
    nullary main_cst_27 (constant S_ .f32 0x00000000#32),
    unary main_cst_27 main_v104 (broadcastInDim S100000 ![] bcast_S_S100000 : (⟨S_, .f32⟩ : BufTy).Contents (Elt F) → (⟨S100000, .f32⟩ : BufTy).Contents (Elt F)),
    unary main_v6 main_v105 (broadcastInDim S740000x1 ![0] bcast_S740000_S740000x1_0 : (⟨S740000, .i32⟩ : BufTy).Contents (Elt F) → (⟨S740000x1, .i32⟩ : BufTy).Contents (Elt F)),
    ternary main_v104 main_v105 main_v103 main_v106 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_28 (constant S_ .f32 0x00000000#32),
    unary main_cst_28 main_v107 (broadcastInDim S100000 ![] bcast_S_S100000 : (⟨S_, .f32⟩ : BufTy).Contents (Elt F) → (⟨S100000, .f32⟩ : BufTy).Contents (Elt F)),
    binary main_v106 main_v107 main_v108 (cmpf .ogt : (⟨S100000, .f32⟩ : BufTy).Contents (Elt F) → (⟨S100000, .f32⟩ : BufTy).Contents (Elt F) → (⟨S100000, .i1⟩ : BufTy).Contents (Elt F)),
    unary main_v106 main_v109 (Host.rsqrt : (⟨S100000, .f32⟩ : BufTy).Contents (Elt F) → (⟨S100000, .f32⟩ : BufTy).Contents (Elt F)),
    nullary main_cst_29 (constant S_ .f32 0x00000000#32),
    TRef.unary (TRef.of (T := ⟨S_, .f32⟩) main_cst_29) (TRef.of (T := ⟨S_, .f32⟩) main_call5_v0) id,
    TRef.unary (TRef.of (T := ⟨S_, .f32⟩) main_call5_v0) (TRef.of (T := ⟨S100000, .f32⟩) main_call5_v1) (broadcastInDim S100000 ![] bcast_S_S100000),
    TRef.ternary (TRef.of (T := ⟨S100000, .i1⟩) main_v108) (TRef.of (T := ⟨S100000, .f32⟩) main_v109) (TRef.of (T := ⟨S100000, .f32⟩) main_call5_v1) (TRef.of (T := ⟨S100000, .f32⟩) main_v110) select,
    nullary main_c_30 (constantI S_ 32 0#32),
    unary main_c_30 main_v111 (broadcastInDim S740000 ![] bcast_S_S740000 : (⟨S_, .i32⟩ : BufTy).Contents (Elt F) → (⟨S740000, .i32⟩ : BufTy).Contents (Elt F)),
    binary main_v3 main_v111 main_v112 (cmpi .slt : (⟨S740000, .i32⟩ : BufTy).Contents (Elt F) → (⟨S740000, .i32⟩ : BufTy).Contents (Elt F) → (⟨S740000, .i1⟩ : BufTy).Contents (Elt F)),
    nullary main_c_31 (constantI S_ 32 100000#32),
    unary main_c_31 main_v113 (broadcastInDim S740000 ![] bcast_S_S740000 : (⟨S_, .i32⟩ : BufTy).Contents (Elt F) → (⟨S740000, .i32⟩ : BufTy).Contents (Elt F)),
    binary main_v3 main_v113 main_v114 (addi : (⟨S740000, .i32⟩ : BufTy).Contents (Elt F) → (⟨S740000, .i32⟩ : BufTy).Contents (Elt F) → (⟨S740000, .i32⟩ : BufTy).Contents (Elt F)),
    ternary main_v112 main_v114 main_v3 main_v115 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v115 main_v116 (broadcastInDim S740000x1 ![0] bcast_S740000_S740000x1_0 : (⟨S740000, .i32⟩ : BufTy).Contents (Elt F) → (⟨S740000x1, .i32⟩ : BufTy).Contents (Elt F)),
    binary main_v110 main_v116 main_v117 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_32 (constantI S_ 32 0#32),
    unary main_c_32 main_v118 (broadcastInDim S740000 ![] bcast_S_S740000 : (⟨S_, .i32⟩ : BufTy).Contents (Elt F) → (⟨S740000, .i32⟩ : BufTy).Contents (Elt F)),
    binary main_v6 main_v118 main_v119 (cmpi .slt : (⟨S740000, .i32⟩ : BufTy).Contents (Elt F) → (⟨S740000, .i32⟩ : BufTy).Contents (Elt F) → (⟨S740000, .i1⟩ : BufTy).Contents (Elt F)),
    nullary main_c_33 (constantI S_ 32 100000#32),
    unary main_c_33 main_v120 (broadcastInDim S740000 ![] bcast_S_S740000 : (⟨S_, .i32⟩ : BufTy).Contents (Elt F) → (⟨S740000, .i32⟩ : BufTy).Contents (Elt F)),
    binary main_v6 main_v120 main_v121 (addi : (⟨S740000, .i32⟩ : BufTy).Contents (Elt F) → (⟨S740000, .i32⟩ : BufTy).Contents (Elt F) → (⟨S740000, .i32⟩ : BufTy).Contents (Elt F)),
    ternary main_v119 main_v121 main_v6 main_v122 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v122 main_v123 (broadcastInDim S740000x1 ![0] bcast_S740000_S740000x1_0 : (⟨S740000, .i32⟩ : BufTy).Contents (Elt F) → (⟨S740000x1, .i32⟩ : BufTy).Contents (Elt F)),
    binary main_v110 main_v123 main_v124 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v117 main_v124 main_v125 (mulf : (⟨S740000, .f32⟩ : BufTy).Contents (Elt F) → (⟨S740000, .f32⟩ : BufTy).Contents (Elt F) → (⟨S740000, .f32⟩ : BufTy).Contents (Elt F)) ]
/-- The buffers they write. -/
abbrev opsE3_W : List (Ref sig .tc) := [main_cst_26, main_v103, main_cst_27, main_v104, main_v105, main_v106, main_cst_28, main_v107, main_v108, main_v109, main_cst_29, main_call5_v0, main_call5_v1, main_v110, main_c_30, main_v111, main_v112, main_c_31, main_v113, main_v114, main_v115, main_v116, main_v117, main_c_32, main_v118, main_v119, main_c_33, main_v120, main_v121, main_v122, main_v123, main_v124, main_v125]
theorem opsE3_writes : (opsE3 : List (HloOp τ sig (Elt F))).Forall fun op => op.writes ⊆ (opsE3_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents. -/
theorem keepE3 (W : Valuation τ sig (Elt F)) (r : Ref sig .tc) (h : r ∉ opsE3_W) :
    after (opsE3 (F := F)) W (Proc.devRef .tc r) = W (Proc.devRef .tc r) :=
  after_of_writes_sub opsE3 _ opsE3_writes h

/-- Operations 169 … 187 of @main: layer 3: the aggregation and the bias. -/
abbrev opsG3 : List (HloOp τ sig (Elt F)) :=
  [ nullary main_c_34 (constantI S_ 32 0#32),
    unary main_c_34 main_v126 (broadcastInDim S740000 ![] bcast_S_S740000 : (⟨S_, .i32⟩ : BufTy).Contents (Elt F) → (⟨S740000, .i32⟩ : BufTy).Contents (Elt F)),
    binary main_v3 main_v126 main_v127 (cmpi .slt : (⟨S740000, .i32⟩ : BufTy).Contents (Elt F) → (⟨S740000, .i32⟩ : BufTy).Contents (Elt F) → (⟨S740000, .i1⟩ : BufTy).Contents (Elt F)),
    nullary main_c_35 (constantI S_ 32 100000#32),
    unary main_c_35 main_v128 (broadcastInDim S740000 ![] bcast_S_S740000 : (⟨S_, .i32⟩ : BufTy).Contents (Elt F) → (⟨S740000, .i32⟩ : BufTy).Contents (Elt F)),
    binary main_v3 main_v128 main_v129 (addi : (⟨S740000, .i32⟩ : BufTy).Contents (Elt F) → (⟨S740000, .i32⟩ : BufTy).Contents (Elt F) → (⟨S740000, .i32⟩ : BufTy).Contents (Elt F)),
    ternary main_v127 main_v129 main_v3 main_v130 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v130 main_v131 (broadcastInDim S740000x1 ![0] bcast_S740000_S740000x1_0 : (⟨S740000, .i32⟩ : BufTy).Contents (Elt F) → (⟨S740000x1, .i32⟩ : BufTy).Contents (Elt F)),
    binary main_v102 main_v131 main_v132 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v125 main_v133 (broadcastInDim S740000x1 ![0] bcast_S740000_S740000x1_0 : (⟨S740000, .f32⟩ : BufTy).Contents (Elt F) → (⟨S740000x1, .f32⟩ : BufTy).Contents (Elt F)),
    unary main_v133 main_v134 (broadcastInDim S740000x128 ![0, 1] bcast_S740000x1_S740000x128_0_1 : (⟨S740000x1, .f32⟩ : BufTy).Contents (Elt F) → (⟨S740000x128, .f32⟩ : BufTy).Contents (Elt F)),
    binary main_v132 main_v134 main_v135 (mulf : (⟨S740000x128, .f32⟩ : BufTy).Contents (Elt F) → (⟨S740000x128, .f32⟩ : BufTy).Contents (Elt F) → (⟨S740000x128, .f32⟩ : BufTy).Contents (Elt F)),
    nullary main_cst_36 (constant S_ .f32 0x00000000#32),
    unary main_cst_36 main_v136 (broadcastInDim S100000x128 ![] bcast_S_S100000x128 : (⟨S_, .f32⟩ : BufTy).Contents (Elt F) → (⟨S100000x128, .f32⟩ : BufTy).Contents (Elt F)),
    unary main_v6 main_v137 (broadcastInDim S740000x1 ![0] bcast_S740000_S740000x1_0 : (⟨S740000, .i32⟩ : BufTy).Contents (Elt F) → (⟨S740000x1, .i32⟩ : BufTy).Contents (Elt F)),
    ternary main_v136 main_v137 main_v135 main_v138 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg7 main_v139 (broadcastInDim S1x128 ![1] bcast_S128_S1x128_1 : (⟨S128, .f32⟩ : BufTy).Contents (Elt F) → (⟨S1x128, .f32⟩ : BufTy).Contents (Elt F)),
    unary main_v139 main_v140 (broadcastInDim S100000x128 ![0, 1] bcast_S1x128_S100000x128_0_1 : (⟨S1x128, .f32⟩ : BufTy).Contents (Elt F) → (⟨S100000x128, .f32⟩ : BufTy).Contents (Elt F)),
    binary main_v138 main_v140 main_v141 (addf : (⟨S100000x128, .f32⟩ : BufTy).Contents (Elt F) → (⟨S100000x128, .f32⟩ : BufTy).Contents (Elt F) → (⟨S100000x128, .f32⟩ : BufTy).Contents (Elt F)) ]
/-- The buffers they write. -/
abbrev opsG3_W : List (Ref sig .tc) := [main_c_34, main_v126, main_v127, main_c_35, main_v128, main_v129, main_v130, main_v131, main_v132, main_v133, main_v134, main_v135, main_cst_36, main_v136, main_v137, main_v138, main_v139, main_v140, main_v141]
theorem opsG3_writes : (opsG3 : List (HloOp τ sig (Elt F))).Forall fun op => op.writes ⊆ (opsG3_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents. -/
theorem keepG3 (W : Valuation τ sig (Elt F)) (r : Ref sig .tc) (h : r ∉ opsG3_W) :
    after (opsG3 (F := F)) W (Proc.devRef .tc r) = W (Proc.devRef .tc r) :=
  after_of_writes_sub opsG3 _ opsG3_writes h

/-! ## What each stretch computes -/

/-- The senders' list. -/
theorem nodes_v3 (W : Valuation τ sig (Elt F)) :
    after (opsN (F := F)) W (Proc.devRef .tc main_v3) = Cert.Gcn.nodes0 (W (Proc.devRef .tc main_arg1)) := by
  after_results_simp
  rfl
/-- The receivers' list. -/
theorem nodes_v6 (W : Valuation τ sig (Elt F)) :
    after (opsN (F := F)) W (Proc.devRef .tc main_v6) = Cert.Gcn.nodes1 (W (Proc.devRef .tc main_arg1)) := by
  after_results_simp
  rfl
/-- Layer 1's product. -/
theorem dense1 (W : Valuation τ sig (Elt F)) :
    after (opsD1 (F := F)) W (Proc.devRef .tc main_v12) = Cert.Gcn.dense (W (Proc.devRef .tc main_arg0)) (W (Proc.devRef .tc main_arg2)) := by
  after_results_simp
  rfl
/-- Layer 1's edge weights: a function of the two node lists only. -/
theorem weights1 (W : Valuation τ sig (Elt F)) :
    after (opsE1 (F := F)) W (Proc.devRef .tc main_v35) = Cert.Gcn.edgeW (W (Proc.devRef .tc main_v3)) (W (Proc.devRef .tc main_v6)) := by
  after_results_simp
  rfl
/-- Layer 1's aggregation. -/
theorem agg1 (W : Valuation τ sig (Elt F)) :
    after (opsG1 (F := F)) W (Proc.devRef .tc main_v51) = Cert.Gcn.agg (W (Proc.devRef .tc main_v12)) (W (Proc.devRef .tc main_v3)) (W (Proc.devRef .tc main_v6)) (W (Proc.devRef .tc main_v35)) (W (Proc.devRef .tc main_arg3)) := by
  after_results_simp
  rfl
/-- Layer 1 whole: its three stretches one after the other. -/
theorem layer1 (W : Valuation τ sig (Elt F)) :
    after (opsG1 (F := F)) (after opsE1 (after opsD1 W)) (Proc.devRef .tc main_v51)
      = Cert.Gcn.agg (Cert.Gcn.dense (W (Proc.devRef .tc main_arg0)) (W (Proc.devRef .tc main_arg2))) (W (Proc.devRef .tc main_v3)) (W (Proc.devRef .tc main_v6)) (Cert.Gcn.edgeW (W (Proc.devRef .tc main_v3)) (W (Proc.devRef .tc main_v6))) (W (Proc.devRef .tc main_arg3)) := by
  rw [agg1, weights1, keepE1 _ main_v12 (by decide), keepE1 _ main_v3 (by decide), keepE1 _ main_v6 (by decide), keepE1 _ main_arg3 (by decide),
    dense1, keepD1 _ main_v3 (by decide), keepD1 _ main_v6 (by decide), keepD1 _ main_arg3 (by decide)]
/-- A buffer layer 1 does not write keeps its contents through it. -/
theorem keepL1 (W : Valuation τ sig (Elt F)) (r : Ref sig .tc) (hD : r ∉ opsD1_W) (hE : r ∉ opsE1_W) (hG : r ∉ opsG1_W) :
    after (opsG1 (F := F)) (after opsE1 (after opsD1 W)) (Proc.devRef .tc r) = W (Proc.devRef .tc r) := by
  rw [keepG1 _ r hG, keepE1 _ r hE, keepD1 _ r hD]
/-- Layer 2's product. -/
theorem dense2 (W : Valuation τ sig (Elt F)) :
    after (opsD2 (F := F)) W (Proc.devRef .tc main_v57) = Cert.Gcn.dense (W (Proc.devRef .tc main_v51)) (W (Proc.devRef .tc main_arg4)) := by
  after_results_simp
  rfl
/-- Layer 2's edge weights: a function of the two node lists only. -/
theorem weights2 (W : Valuation τ sig (Elt F)) :
    after (opsE2 (F := F)) W (Proc.devRef .tc main_v80) = Cert.Gcn.edgeW (W (Proc.devRef .tc main_v3)) (W (Proc.devRef .tc main_v6)) := by
  after_results_simp
  rfl
/-- Layer 2's aggregation. -/
theorem agg2 (W : Valuation τ sig (Elt F)) :
    after (opsG2 (F := F)) W (Proc.devRef .tc main_v96) = Cert.Gcn.agg (W (Proc.devRef .tc main_v57)) (W (Proc.devRef .tc main_v3)) (W (Proc.devRef .tc main_v6)) (W (Proc.devRef .tc main_v80)) (W (Proc.devRef .tc main_arg5)) := by
  after_results_simp
  rfl
/-- Layer 2 whole: its three stretches one after the other. -/
theorem layer2 (W : Valuation τ sig (Elt F)) :
    after (opsG2 (F := F)) (after opsE2 (after opsD2 W)) (Proc.devRef .tc main_v96)
      = Cert.Gcn.agg (Cert.Gcn.dense (W (Proc.devRef .tc main_v51)) (W (Proc.devRef .tc main_arg4))) (W (Proc.devRef .tc main_v3)) (W (Proc.devRef .tc main_v6)) (Cert.Gcn.edgeW (W (Proc.devRef .tc main_v3)) (W (Proc.devRef .tc main_v6))) (W (Proc.devRef .tc main_arg5)) := by
  rw [agg2, weights2, keepE2 _ main_v57 (by decide), keepE2 _ main_v3 (by decide), keepE2 _ main_v6 (by decide), keepE2 _ main_arg5 (by decide),
    dense2, keepD2 _ main_v3 (by decide), keepD2 _ main_v6 (by decide), keepD2 _ main_arg5 (by decide)]
/-- A buffer layer 2 does not write keeps its contents through it. -/
theorem keepL2 (W : Valuation τ sig (Elt F)) (r : Ref sig .tc) (hD : r ∉ opsD2_W) (hE : r ∉ opsE2_W) (hG : r ∉ opsG2_W) :
    after (opsG2 (F := F)) (after opsE2 (after opsD2 W)) (Proc.devRef .tc r) = W (Proc.devRef .tc r) := by
  rw [keepG2 _ r hG, keepE2 _ r hE, keepD2 _ r hD]
/-- Layer 3's product. -/
theorem dense3 (W : Valuation τ sig (Elt F)) :
    after (opsD3 (F := F)) W (Proc.devRef .tc main_v102) = Cert.Gcn.dense (W (Proc.devRef .tc main_v96)) (W (Proc.devRef .tc main_arg6)) := by
  after_results_simp
  rfl
/-- Layer 3's edge weights: a function of the two node lists only. -/
theorem weights3 (W : Valuation τ sig (Elt F)) :
    after (opsE3 (F := F)) W (Proc.devRef .tc main_v125) = Cert.Gcn.edgeW (W (Proc.devRef .tc main_v3)) (W (Proc.devRef .tc main_v6)) := by
  after_results_simp
  rfl
/-- Layer 3's aggregation. -/
theorem agg3 (W : Valuation τ sig (Elt F)) :
    after (opsG3 (F := F)) W (Proc.devRef .tc main_v141) = Cert.Gcn.agg (W (Proc.devRef .tc main_v102)) (W (Proc.devRef .tc main_v3)) (W (Proc.devRef .tc main_v6)) (W (Proc.devRef .tc main_v125)) (W (Proc.devRef .tc main_arg7)) := by
  after_results_simp
  rfl
/-- Layer 3 whole: its three stretches one after the other. -/
theorem layer3 (W : Valuation τ sig (Elt F)) :
    after (opsG3 (F := F)) (after opsE3 (after opsD3 W)) (Proc.devRef .tc main_v141)
      = Cert.Gcn.agg (Cert.Gcn.dense (W (Proc.devRef .tc main_v96)) (W (Proc.devRef .tc main_arg6))) (W (Proc.devRef .tc main_v3)) (W (Proc.devRef .tc main_v6)) (Cert.Gcn.edgeW (W (Proc.devRef .tc main_v3)) (W (Proc.devRef .tc main_v6))) (W (Proc.devRef .tc main_arg7)) := by
  rw [agg3, weights3, keepE3 _ main_v102 (by decide), keepE3 _ main_v3 (by decide), keepE3 _ main_v6 (by decide), keepE3 _ main_arg7 (by decide),
    dense3, keepD3 _ main_v3 (by decide), keepD3 _ main_v6 (by decide), keepD3 _ main_arg7 (by decide)]
/-- A buffer layer 3 does not write keeps its contents through it. -/
theorem keepL3 (W : Valuation τ sig (Elt F)) (r : Ref sig .tc) (hD : r ∉ opsD3_W) (hE : r ∉ opsE3_W) (hG : r ∉ opsG3_W) :
    after (opsG3 (F := F)) (after opsE3 (after opsD3 W)) (Proc.devRef .tc r) = W (Proc.devRef .tc r) := by
  rw [keepG3 _ r hG, keepE3 _ r hE, keepD3 _ r hD]

/-! ## The whole line -/

/-- @main's operations are the ten stretches in order. -/
theorem ops_split : (ops : List (HloOp τ sig (Elt F))) = opsN ++ (opsD1 ++ (opsE1 ++ (opsG1 ++ (opsD2 ++ (opsE2 ++ (opsG2 ++ (opsD3 ++ (opsE3 ++ opsG3)))))))) := rfl

/-- THE RESULT of the whole line, from any contents `V`: the three layers of the arguments. -/
theorem after_ops_result (V : Valuation τ sig (Elt F)) :
    after (ops (F := F)) V (Proc.devRef .tc main_v141)
      = Cert.Gcn.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split]
  simp only [Cert.LibAfter.after_append]
  rw [layer3, layer2, layer1,
    keepL2 _ main_arg6 (by decide) (by decide) (by decide), keepL2 _ main_v3 (by decide) (by decide) (by decide), keepL2 _ main_v6 (by decide) (by decide) (by decide), keepL2 _ main_arg7 (by decide) (by decide) (by decide),
    keepL1 _ main_arg4 (by decide) (by decide) (by decide), keepL1 _ main_arg5 (by decide) (by decide) (by decide), keepL1 _ main_arg6 (by decide) (by decide) (by decide), keepL1 _ main_arg7 (by decide) (by decide) (by decide), keepL1 _ main_v3 (by decide) (by decide) (by decide), keepL1 _ main_v6 (by decide) (by decide) (by decide),
    nodes_v3, nodes_v6,
    keepN _ main_arg0 (by decide), keepN _ main_arg2 (by decide), keepN _ main_arg3 (by decide), keepN _ main_arg4 (by decide), keepN _ main_arg5 (by decide), keepN _ main_arg6 (by decide), keepN _ main_arg7 (by decide)]
  rfl

/-- An argument's buffer is written by no operation. -/
theorem after_ops_arg (V : Valuation τ sig (Elt F)) (r : Ref sig .tc)
    (h : r ∈ ([main_arg0, main_arg1, main_arg2, main_arg3, main_arg4, main_arg5, main_arg6, main_arg7] : List (Ref sig .tc))) :
    after (ops (F := F)) V (Proc.devRef .tc r) = V (Proc.devRef .tc r) := by
  rw [ops_split]
  simp only [Cert.LibAfter.after_append]
  have hr : r = main_arg0 ∨ r = main_arg1 ∨ r = main_arg2 ∨ r = main_arg3 ∨ r = main_arg4 ∨ r = main_arg5 ∨ r = main_arg6 ∨ r = main_arg7 := by
    simpa using h
  rcases hr with rfl | rfl | rfl | rfl | rfl | rfl | rfl | rfl <;>
    rw [keepL3 _ _ (by decide) (by decide) (by decide), keepL2 _ _ (by decide) (by decide) (by decide),
      keepL1 _ _ (by decide) (by decide) (by decide), keepN _ _ (by decide)]

/-- THE REFERENCE'S RUN, read: every weakly fair execution terminates with the result array at the three layers of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v141) = Cert.Gcn.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v141).trans (after_ops_result (launchContents m c)),
      (h c main_arg0).trans (after_ops_arg (launchContents m c) main_arg0 (by decide)),
      (h c main_arg1).trans (after_ops_arg (launchContents m c) main_arg1 (by decide)),
      (h c main_arg2).trans (after_ops_arg (launchContents m c) main_arg2 (by decide)),
      (h c main_arg3).trans (after_ops_arg (launchContents m c) main_arg3 (by decide)),
      (h c main_arg4).trans (after_ops_arg (launchContents m c) main_arg4 (by decide)),
      (h c main_arg5).trans (after_ops_arg (launchContents m c) main_arg5 (by decide)),
      (h c main_arg6).trans (after_ops_arg (launchContents m c) main_arg6 (by decide)),
      (h c main_arg7).trans (after_ops_arg (launchContents m c) main_arg7 (by decide))⟩)
    (Cert.ReferenceIdeal.RunP.run_after m ρ)

end Cert.Gcn.Ref

end
-- ==== Proof.lean ====
/-
  A three-layer graph convolution: every layer applies the leaky rectifier entrywise, multiplies by a 128 × 128
  matrix, sums the senders' rows into the receivers' with the symmetric degree weights, and adds a bias row.

  The kernel program does the rectifier and the matrix product of each layer in a launched kernel, ten blocks of
  10000 rows at a time, and computes the edge weights once; the reference does everything with host operations on
  the whole arrays and recomputes the edge weights in every layer.  At the exact instance both results are the
  same function `Cert.Gcn.net` of the arguments (Proof/Spec.lean):

  * a block of the product is the product of the block of rows: entry (r, q) is the sum over k of the rectified
    entry (r, k) times the matrix's (k, q), on both sides, term by term (Proof/Region*.lean) — no rearrangement of a
    sum, so no finiteness is used and the precondition is never opened;
  * the host operations around the launches are, literally, the reference's (Proof/KHost.lean; the reference's own
    line is read in Proof/RefSide.lean over its run, Proof/RefRun.lean),
    and a buffer that a stretch or a launch does not write keeps its contents (Proof/Chain.lean);
  * the edge weights depend on the edge array only, so computing them once or three times gives one value.

  The three frames are the generated ones (the reference's is its run with the result dropped); the
  idealization rewrote nothing.
-/
import proofs.«160299_j35218731827634_2_alg».proof.Defs
import proofs.«160299_j35218731827634_2_alg».proof.Proof.Gen.Kernel
import proofs.«160299_j35218731827634_2_alg».proof.Proof.Gen.Kernel.Frame
import proofs.«160299_j35218731827634_2_alg».proof.Proof.Gen.KernelIdeal
import proofs.«160299_j35218731827634_2_alg».proof.Proof.Gen.KernelIdeal.Frame
import proofs.«160299_j35218731827634_2_alg».proof.Proof.Gen.ReferenceIdeal
import proofs.«160299_j35218731827634_2_alg».proof.Proof.Gen.Pre_finite_inputs
import proofs.«160299_j35218731827634_2_alg».proof.Proof.Spec
import proofs.«160299_j35218731827634_2_alg».proof.Proof.RunAll
import proofs.«160299_j35218731827634_2_alg».proof.Proof.Chain
import proofs.«160299_j35218731827634_2_alg».proof.Proof.RefSide
import Idealize.ShloMosaic.PureOps.Ideal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.Gcn.Ref.run (F := Ideal) m ρ)

theorem preserves : Cert.preserves_Kernel_KernelIdeal := trivial

/-- Both programs end with the result array at the three layers of the (agreeing) arguments. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.Gcn.Chain.w9_v80 m ρ c), (h c).2⟩)
      (Cert.Gcn.KRun.run_result (F := Ideal) m ρ)
  · refine (θ_run Cert.ReferenceIdeal.defs _ _).mono (fun _ h c => ⟨(h c).1.trans ?_, (h c).2⟩)
      (Cert.Gcn.Ref.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
